-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn_part1 {F : FTy → Type} [FloatOps F] (main_arg4 : FVec F S4x16x2048x64 .f32) (main_arg5 : FVec F S4x16x2048x64 .f32) (main_v13 : IVec S_ 1) (main_v16 : IVec S4x16x2048x64 1) : IVec S_ 1 :=
  let main_c_5 : IVec S_ 1 := constantI S_ 1 1#1
  let main_v17 : IVec S_ 1 := (fun x v => Host.reduce IntOp.andi x v reducesTo_S4x16x2048x64_S_d0_1_2_3 h_S_) main_v16 main_c_5
  let main_v18 : IVec S_ 1 := andi main_v13 main_v17
  let main_v19 : FVec F S4x16x2048x64 .f32 := Host.absf main_arg4
  let main_cst_6 : FVec F S_ .f32 := constant S_ .f32 0x7F800000#32
  let main_v20 : FVec F S4x16x2048x64 .f32 := broadcastInDim S4x16x2048x64 ![] bcast_S_S4x16x2048x64 main_cst_6
  let main_v21 : IVec S4x16x2048x64 1 := cmpf .olt main_v19 main_v20
  let main_c_7 : IVec S_ 1 := constantI S_ 1 1#1
  let main_v22 : IVec S_ 1 := (fun x v => Host.reduce IntOp.andi x v reducesTo_S4x16x2048x64_S_d0_1_2_3 h_S_) main_v21 main_c_7
  let main_v23 : IVec S_ 1 := andi main_v18 main_v22
  let main_v24 : FVec F S4x16x2048x64 .f32 := Host.absf main_arg5
  let main_cst_8 : FVec F S_ .f32 := constant S_ .f32 0x7F800000#32
  let main_v25 : FVec F S4x16x2048x64 .f32 := broadcastInDim S4x16x2048x64 ![] bcast_S_S4x16x2048x64 main_cst_8
  let main_v26 : IVec S4x16x2048x64 1 := cmpf .olt main_v24 main_v25
  let main_c_9 : IVec S_ 1 := constantI S_ 1 1#1
  let main_v27 : IVec S_ 1 := (fun x v => Host.reduce IntOp.andi x v reducesTo_S4x16x2048x64_S_d0_1_2_3 h_S_) main_v26 main_c_9
  let main_v28 : IVec S_ 1 := andi main_v23 main_v27
  main_v28

def fn {F : FTy → Type} [FloatOps F] (main_arg0 : FVec F S4x16x2048x64 .f32) (main_arg1 : FVec F S4x16x2048x64 .f32) (main_arg2 : FVec F S4x16x2048x64 .f32) (main_arg3 : FVec F S4x16x2048x64 .f32) (main_arg4 : FVec F S4x16x2048x64 .f32) (main_arg5 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S4x16x2048x64 .f32 := Host.absf main_arg3
  let main_cst_4 : FVec F S_ .f32 := constant S_ .f32 0x7F800000#32
  let main_v15 : FVec F S4x16x2048x64 .f32 := broadcastInDim S4x16x2048x64 ![] bcast_S_S4x16x2048x64 main_cst_4
  let main_v16 : IVec S4x16x2048x64 1 := cmpf .olt main_v14 main_v15
  fn_part1 (F := F) main_arg4 main_arg5 main_v13 main_v16
-- ==== Kernel.lean ====
abbrev S4x16x2048x64 : Shape := ⟨4, ![4, 16, 2048, 64]⟩
abbrev S4x16x2048x64x2 : Shape := ⟨5, ![4, 16, 2048, 64, 2]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x512x64x2 : Shape := ⟨5, ![1, 1, 512, 64, 2]⟩
abbrev S1x1x512x2048 : Shape := ⟨4, ![1, 1, 512, 2048]⟩
abbrev S512x64 : Shape := ⟨2, ![512, 64]⟩
abbrev S2048x64 : Shape := ⟨2, ![2048, 64]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S512x64x1 : Shape := ⟨3, ![512, 64, 1]⟩
abbrev S512x64x2 : Shape := ⟨3, ![512, 64, 2]⟩

abbrev nBuf : Space → Nat
  | .hbm => 8
  | .vmem => 16
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x64, .f32⟩
  | .hbm, ⟨4, _⟩ => ⟨S4x16x2048x64, .f32⟩
  | .hbm, ⟨5, _⟩ => ⟨S4x16x2048x64, .f32⟩
  | .hbm, ⟨6, _⟩ => ⟨S4x16x2048x64x2, .f32⟩
  | .hbm, ⟨7, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x512x64, .f32⟩
  | .local _ .vmem, ⟨3, _⟩ => ⟨S1x1x512x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x64, .f32⟩
  | .local _ .vmem, ⟨7, _⟩ => ⟨S1x1x2048x64, .f32⟩
  | .local _ .vmem, ⟨8, _⟩ => ⟨S1x1x2048x64, .f32⟩
  | .local _ .vmem, ⟨9, _⟩ => ⟨S1x1x2048x64, .f32⟩
  | .local _ .vmem, ⟨10, _⟩ => ⟨S1x1x2048x64, .f32⟩
  | .local _ .vmem, ⟨11, _⟩ => ⟨S1x1x2048x64, .f32⟩
  | .local _ .vmem, ⟨12, _⟩ => ⟨S1x1x512x64x2, .f32⟩
  | .local _ .vmem, ⟨13, _⟩ => ⟨S1x1x512x64x2, .f32⟩
  | .local _ .vmem, ⟨14, _⟩ => ⟨S1x1x512x2048, .f32⟩
  | .local _ .vmem, ⟨15, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x512x64x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  concatenates_S512x64_S512x64_S512x128_d1 : Shape.Concatenates [S512x64, S512x64] S512x128 1
  concatenates_S2048x64_S2048x64_S2048x128_d1 : Shape.Concatenates [S2048x64, S2048x64] S2048x128 1
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  slices_S512x128_o0_0_S512x64 : S512x128.Slices ![0, 0] S512x64
  slices_S512x128_o0_64_S512x64 : S512x128.Slices ![0, 64] S512x64
  shapeCasts_S512x64_S512x64x1 : S512x64.ShapeCasts S512x64x1
  concatenates_S512x64x1_S512x64x1_S512x64x2_d2 : Shape.Concatenates [S512x64x1, S512x64x1] S512x64x2 2
  inb_S1x1x512x64x2_S1x1x512x64x2_0_0_0_0_0 : ∀ a, (![0, 0, 0, 0, 0] : Fin 5 → Nat) a + S1x1x512x64x2.size a ≤ S1x1x512x64x2.size a
  h_S1x1x512x64x2 : 0 < S1x1x512x64x2.numel
  shapeCasts_S1x1x512x64x2_S512x64x2 : S1x1x512x64x2.ShapeCasts S512x64x2
  shapeCasts_S512x64x2_S1x1x512x64x2 : S512x64x2.ShapeCasts S1x1x512x64x2
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x64.size a ≤ S4x16x2048x64.size a
  hwx0_1 : ∀ i : grid0.Coords, EltTy.bits .f32 = 32 ∨ (Rect.block (s := S4x16x2048x64) S1x1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x64.size a ≤ S4x16x2048x64.size a
  hwx0_3 : ∀ i : grid0.Coords, EltTy.bits .f32 = 32 ∨ (Rect.block (s := S4x16x2048x64) S1x1x2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048x64.size a ≤ S4x16x2048x64.size a
  hwx0_4 : ∀ i : grid0.Coords, EltTy.bits .f32 = 32 ∨ (Rect.block (s := S4x16x2048x64) S1x1x2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048x64.size a ≤ S4x16x2048x64.size a
  hwx0_5 : ∀ i : grid0.Coords, EltTy.bits .f32 = 32 ∨ (Rect.block (s := S4x16x2048x64) S1x1x2048x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x64x2.size a ≤ S4x16x2048x64x2.size a
  hwx0_6 : ∀ i : grid0.Coords, EltTy.bits .f32 = 32 ∨ (Rect.block (s := S4x16x2048x64x2) S1x1x512x64x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x512x2048.size a ≤ S4x16x2048x2048.size a
  hwx0_7 : ∀ i : grid0.Coords, EltTy.bits .f32 = 32 ∨ (Rect.block (s := S4x16x2048x2048) S1x1x512x2048.size (cc0_transform_7 i) (hinb0_7 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x2048x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x2048x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x1x512x64x2.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x1x512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x16x2048x64x1 : Shape := ⟨5, ![4, 16, 2048, 64, 1]⟩
abbrev S4x16x2048x64x2 : Shape := ⟨5, ![4, 16, 2048, 64, 2]⟩

abbrev nBuf : Space → Nat
  | .hbm => 41
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x64, .f32⟩
  | .hbm, ⟨4, _⟩ => ⟨S4x16x2048x64, .f32⟩
  | .hbm, ⟨5, _⟩ => ⟨S4x16x2048x64, .f32⟩
  | .hbm, ⟨6, _⟩ => ⟨S_, .f32⟩
  | .hbm, ⟨7, _⟩ => ⟨S4x16x2048x64, .f32⟩
  | .hbm, ⟨8, _⟩ => ⟨S4x16x2048x64, .f32⟩
  | .hbm, ⟨9, _⟩ => ⟨S_, .f32⟩
  | .hbm, ⟨10, _⟩ => ⟨S4x16x2048x64, .f32⟩
  | .hbm, ⟨11, _⟩ => ⟨S4x16x2048x64, .f32⟩
  | .hbm, ⟨12, _⟩ => ⟨S4x16x2048x2048, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S4x16x2048x2048, .f32⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S_, .f32⟩
  | .hbm, ⟨25, _⟩ => ⟨S4x16x2048, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x64, .f32⟩
  | .hbm, ⟨37, _⟩ => ⟨S4x16x2048x64, .f32⟩
  | .hbm, ⟨38, _⟩ => ⟨S4x16x2048x64x1, .f32⟩
  | .hbm, ⟨39, _⟩ => ⟨S4x16x2048x64x1, .f32⟩
  | .hbm, ⟨40, _⟩ => ⟨S4x16x2048x64x2, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S_S4x16x2048x64 : S_.BroadcastsInDim S4x16x2048x64 (![] : Fin 0 → Fin S4x16x2048x64.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  bcast_S4x16x2048x64_S4x16x2048x64x1_0_1_2_3 : S4x16x2048x64.BroadcastsInDim S4x16x2048x64x1 (![0, 1, 2, 3] : Fin 4 → Fin S4x16x2048x64x1.rank)
  concatenates_S4x16x2048x64x1_S4x16x2048x64x1_S4x16x2048x64x2_d4 : Shape.Concatenates [S4x16x2048x64x1, S4x16x2048x64x1] S4x16x2048x64x2 4
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Finite.lean ====
/-
  What the precondition gives: the entries of the queries' real part and of the keys' imaginary part are real numbers.

  The precondition is the conjunction, over the six inputs, of "every entry x has |x| < +∞".  On the extended reals
  |x| = max x (-x), which is +∞ exactly at the two infinities, so each conjunct says that every entry is a real.  Only
  two of the six are needed: the law that joins the two spellings of the imaginary score multiplies entries of q_real
  with entries of k_imag and moves a sign across their sum.
-/
import proofs.«107668_j1365799600287_2_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Finite

open Cert.Pre_finite_inputs Idealize.ShloMosaic

variable [Cert.Pre_finite_inputs.Facts]

open Cert.Pre_finite_inputs.Facts

instance : Subsingleton S_.Idx := ⟨fun a b => funext fun d => d.elim0⟩

/-- The pattern 0x7F800000 is +∞. -/
theorem ofBits_inf : Ideal.ofBits .f32 0x7F800000#32 = ⊤ := by
  simp [Ideal.ofBits, Ideal.ieee]

/-- An extended real whose absolute value is below +∞ is a real. -/
theorem real_of_abs_lt_top (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- One conjunct of the precondition, read back: every entry of the array is a real. -/
theorem real_of_all (x : FVec Ideal S4x16x2048x64 .f32)
    (h : Host.reduce IntOp.andi
        (cmpf .olt (Host.absf x) (broadcastInDim S4x16x2048x64 ![] bcast_S_S4x16x2048x64
          (constant (F := Ideal) S_ .f32 0x7F800000#32)))
        (constantI S_ 1 1#1) reducesTo_S4x16x2048x64_S_d0_1_2_3 h_S_ ValueIdx.ix0 = 1#1)
    (i : S4x16x2048x64.Idx) : ∃ r : ℝ, x i = r := by
  have hi := Host.reduce_andi_all _ _ reducesTo_S4x16x2048x64_S_d0_1_2_3 h_S_ ValueIdx.ix0 h i
  have hb : broadcastInDim S4x16x2048x64 ![] bcast_S_S4x16x2048x64 (constant (F := Ideal) S_ .f32 0x7F800000#32) i = ⊤ :=
    (broadcastInDim_apply _ bcast_S_S4x16x2048x64 _ i ValueIdx.ix0 (fun a => a.elim0)).trans ofBits_inf
  have hc : Ideal.cmp .olt (max (x i) (-(x i))) ⊤ = 1#1 := by
    rw [← hb]; exact hi
  exact real_of_abs_lt_top (x i) hc

/-- THE PRECONDITION READ BACK for the two arrays the score's law needs: q_real (the first input) and k_imag (the
    fourth) hold only reals. -/
theorem reals_of_pre (x0 x1 x2 x3 x4 x5 : FVec Ideal S4x16x2048x64 .f32)
    (h : fn (F := Ideal) x0 x1 x2 x3 x4 x5 = fun _ => 1#1) :
    (∀ i, ∃ r : ℝ, x0 i = r) ∧ (∀ i, ∃ r : ℝ, x3 i = r) := by
  have h28 := congrFun h ValueIdx.ix0
  dsimp only [fn, fn_part1] at h28
  obtain ⟨h23, -⟩ := IntOp.andi_eq_one.1 h28
  obtain ⟨h18, -⟩ := IntOp.andi_eq_one.1 h23
  obtain ⟨h13, ha3⟩ := IntOp.andi_eq_one.1 h18
  obtain ⟨h8, -⟩ := IntOp.andi_eq_one.1 h13
  obtain ⟨ha0, -⟩ := IntOp.andi_eq_one.1 h8
  exact ⟨real_of_all x0 ha0, real_of_all x3 ha3⟩

end Cert.Finite

end
-- ==== Proof.Scalars.lean ====
/-
  The float patterns the two programs spell, as the extended reals they denote: the scale 1/8 the kernel multiplies the
  queries by, the divisor 8 the reference divides them by (8 = √64, the head dimension), and the -∞ the row maximum
  starts from.
-/
import Idealize.ShloMosaic.PureOps.Ideal

noncomputable section

namespace Cert.Scalars

open Idealize.ShloMosaic

/-- The pattern 0x3E000000 is the real 1/8. -/
theorem ofBits_eighth : Ideal.ofBits .f32 0x3E000000#32 = ((1 / 8 : ℝ) : EReal) := by
  simp [Ideal.ofBits, Ideal.ieee, -EReal.coe_mul]; norm_num

/-- The pattern 0x41000000 is the real 8. -/
theorem ofBits_eight : Ideal.ofBits .f32 0x41000000#32 = ((8 : ℝ) : EReal) := by
  simp [Ideal.ofBits, Ideal.ieee, -EReal.coe_mul]; norm_num

/-- The pattern 0xFF800000 is -∞. -/
theorem ofBits_neg_inf : Ideal.ofBits .f32 0xFF800000#32 = ⊥ := by
  simp [Ideal.ofBits, Ideal.ieee]

/-- Dividing by 8 is multiplying by 1/8, on every extended real: the reference's scaled query is the kernel's. -/
theorem div_eight (x : EReal) :
    Ideal.div x (Ideal.ofBits .f32 0x41000000#32) = x * Ideal.ofBits .f32 0x3E000000#32 := by
  rw [ofBits_eight, ofBits_eighth]
  exact Ideal.div_coe (by norm_num) x

end Cert.Scalars

end
-- ==== Proof.ScoreLaw.lean ====
/-
  The algebra that joins the two ways of writing a complex score.

  The kernel forms the imaginary part of q · conj(k) as ONE sum over 128 terms, the 64 products qi·kr followed by the
  64 products (0 - qr)·ki; the reference forms it as the difference of two 64-term sums, Σ qi·kr - Σ qr·ki.  On the
  extended reals a sum of negated terms is the negated sum only when no two terms are opposite infinities, so the law
  is stated for real entries: that is where the finiteness of the inputs is used, and the only place.
-/
import Idealize.ShloMosaic.PureOps.Ideal
import proofs.«107668_j1365799600287_2_alg».proof.Proof.Scalars

noncomputable section

open scoped BigOperators

namespace Cert.ScoreLaw

/-- The coercion ℝ → EReal of a finite sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of negated reals is the negated sum. -/
theorem sum_neg_coe {ι : Type*} (s : Finset ι) (f : ι → ℝ) :
    ∑ i ∈ s, -(f i : EReal) = -∑ i ∈ s, (f i : EReal) := by
  rw [← coe_sum, ← EReal.coe_neg, ← Finset.sum_neg_distrib, coe_sum]
  simp only [EReal.coe_neg]

/-- With real entries q, k and a real scale c: Σ (0 - q·c)·k = -Σ (q·c)·k. -/
theorem sum_zero_sub_mul {ι : Type*} [Fintype ι] (q k : ι → EReal) (c : EReal)
    (hq : ∀ d, ∃ r : ℝ, q d = r) (hk : ∀ d, ∃ r : ℝ, k d = r) (hc : ∃ r : ℝ, c = r) :
    ∑ d, (0 - q d * c) * k d = -∑ d, (q d * c) * k d := by
  choose q' hq' using hq
  choose k' hk' using hk
  obtain ⟨c', rfl⟩ := hc
  have e : ∀ d, (q d * (c' : EReal)) * k d = ((q' d * c' * k' d : ℝ) : EReal) := fun d => by
    rw [hq', hk', ← EReal.coe_mul, ← EReal.coe_mul]
  have e' : ∀ d, (0 - q d * (c' : EReal)) * k d = -((q' d * c' * k' d : ℝ) : EReal) := fun d => by
    rw [sub_eq_add_neg, zero_add, EReal.neg_mul, e]
  simp only [e, e']
  exact sum_neg_coe _ _

/-- The imaginary part, both ways: the kernel's one sum is the reference's difference of two sums. -/
theorem imag_part {ι : Type*} [Fintype ι] (qi kr qr ki : ι → EReal) (c : EReal)
    (hq : ∀ d, ∃ r : ℝ, qr d = r) (hk : ∀ d, ∃ r : ℝ, ki d = r) (hc : ∃ r : ℝ, c = r) :
    (∑ d, (qi d * c) * kr d) + ∑ d, (0 - qr d * c) * ki d
      = (∑ d, (qi d * c) * kr d) - ∑ d, (qr d * c) * ki d := by
  rw [sum_zero_sub_mul qr ki c hq hk hc, sub_eq_add_neg]

/-- A sum over 128 terms is the sum over the first 64 plus the sum over the last 64. -/
theorem sum_two_halves {M : Type*} [AddCommMonoid M] (f : Fin 128 → M) :
    ∑ d, f d = (∑ d : Fin 64, f ⟨d.val, by omega⟩) + ∑ d : Fin 64, f ⟨64 + d.val, by omega⟩ :=
  Fin.sum_univ_add (a := 64) (b := 64) f

end Cert.ScoreLaw

/-! ## The score of one query row against one key row

With q = qr + i·qi scaled by 1/8 and k = kr + i·ki, the score is |q · conj(k)|: its real part is Σ qr·kr + Σ qi·ki, its
imaginary part Σ qi·kr - Σ qr·ki, over the 64 entries of the two rows. -/

namespace Cert.Score

open Idealize.ShloMosaic

/-- The scale 1/8 = 1/√64, as the kernel spells it. -/
def scale : EReal := Ideal.ofBits .f32 0x3E000000#32

theorem scale_real : ∃ r : ℝ, scale = r := ⟨1 / 8, Cert.Scalars.ofBits_eighth⟩

/-- The real part of (q/8) · conj(k). -/
def re (qr qi kr ki : Fin 64 → EReal) : EReal :=
  (∑ d, (qr d * scale) * kr d) + ∑ d, (qi d * scale) * ki d

/-- The imaginary part of (q/8) · conj(k), as ONE sum of 128 products, the last 64 with the query negated. -/
def imJoined (qr qi kr ki : Fin 64 → EReal) : EReal :=
  (∑ d, (qi d * scale) * kr d) + ∑ d, (0 - qr d * scale) * ki d

/-- The imaginary part of (q/8) · conj(k), as the difference of two sums. -/
def imDiff (qr qi kr ki : Fin 64 → EReal) : EReal :=
  (∑ d, (qi d * scale) * kr d) - ∑ d, (qr d * scale) * ki d

/-- The modulus of a complex number given by its two parts. -/
def modulus (x y : EReal) : EReal := Ideal.sqrt (x * x + y * y)

/-- For real qr and ki the two spellings of the imaginary part agree. -/
theorem imJoined_eq_imDiff (qr qi kr ki : Fin 64 → EReal)
    (hq : ∀ d, ∃ r : ℝ, qr d = r) (hk : ∀ d, ∃ r : ℝ, ki d = r) :
    imJoined qr qi kr ki = imDiff qr qi kr ki :=
  Cert.ScoreLaw.imag_part qi kr qr ki scale hq hk scale_real

end Cert.Score

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibColumnJoin.lean ====
/-
  Two [a, 64] arrays joined along the columns into one [a, 128] array, read at an entry.

  Column d < 64 of the joined array is column d of the first piece; column 64 + d is column d of the second.  This is
  how a real part and an imaginary part are laid side by side so that one 128-deep product does the work of two
  64-deep ones.
-/
import Idealize.ShloMosaic.Lib.Pipeline.Value
import Idealize.ShloMosaic.Lib.ValueIdx

noncomputable section

namespace Cert.ColumnJoin

open Idealize.ShloMosaic Idealize.ShloMosaic.ValueIdx

variable {α : Type}

/-- A column in the first half of the joined array reads the first piece. -/
theorem left_apply {a : ℕ} (x₁ x₂ : (⟨2, ![a, 64]⟩ : Shape).Idx → α)
    (h : Shape.Concatenates [⟨2, ![a, 64]⟩, ⟨2, ![a, 64]⟩] ⟨2, ![a, 128]⟩ 1) (p : Fin a) (d : Fin 64) :
    concatenate ⟨2, ![a, 128]⟩ 1 [⟨⟨2, ![a, 64]⟩, x₁⟩, ⟨⟨2, ![a, 64]⟩, x₂⟩] h (ix2 p ⟨d.val, by omega⟩)
      = x₁ (ix2 p d) :=
  concatenate_pair_apply_left 1 x₁ x₂ h _ rfl (ix2 p d) fun b => by
    match b with
    | ⟨0, _⟩ => rfl
    | ⟨1, _⟩ => rfl

/-- A column in the second half of the joined array reads the second piece, 64 columns to the left. -/
theorem right_apply {a : ℕ} (x₁ x₂ : (⟨2, ![a, 64]⟩ : Shape).Idx → α)
    (h : Shape.Concatenates [⟨2, ![a, 64]⟩, ⟨2, ![a, 64]⟩] ⟨2, ![a, 128]⟩ 1) (p : Fin a) (d : Fin 64) :
    concatenate ⟨2, ![a, 128]⟩ 1 [⟨⟨2, ![a, 64]⟩, x₁⟩, ⟨⟨2, ![a, 64]⟩, x₂⟩] h (ix2 p ⟨64 + d.val, by omega⟩)
      = x₂ (ix2 p d) :=
  concatenate_pair_apply_right 1 x₁ x₂ h _ rfl rfl (ix2 p d)
    (fun b hb => by
      match b with
      | ⟨0, _⟩ => rfl
      | ⟨1, _⟩ => exact absurd rfl hb)
    (by show d.val + 64 = 64 + d.val; omega)

end Cert.ColumnJoin

end
-- ==== Proof.KernelScore.lean ====
/-
  The kernel's score block, read at an entry.

  At one grid point the body holds a block of 512 query rows (real and imaginary parts, each [512, 64]) and all 2048 key
  rows of the same batch and head.  It scales the queries by 1/8, lays real and imaginary parts side by side into
  128-wide rows — [qr | qi] and [qi | -qr] for the queries, [kr | ki] for the keys —, takes the two products against the
  keys' rows, and returns the modulus.  Entry (p, k) of the result is therefore the score of query row p against key
  row k: a 128-term dot product splits into its first and last 64 terms, and each half reads one of the joined pieces.
-/
import proofs.«107668_j1365799600287_2_alg».proof.Proof.Gen.KernelIdeal.Skeleton
import proofs.«107668_j1365799600287_2_alg».proof.Proof.ScoreLaw
import proofs.«107668_j1365799600287_2_alg».proof.Proof.LibMatmulRows
import proofs.«107668_j1365799600287_2_alg».proof.Proof.LibColumnJoin
import Idealize.ShloMosaic.Lib.Pipeline.Value
import Idealize.ShloMosaic.Lib.ValueIdx

noncomputable section

open scoped BigOperators

namespace Cert.KernelScore

open Cert.KernelIdeal Cert.KernelIdeal.Gen Idealize.ShloMosaic Idealize.ShloMosaic.ValueIdx

/-- A block [1, 1, a, 64] seen as an [a, 64] array: entry (p, d) is the block's entry (0, 0, p, d). -/
theorem squeeze_apply {α : Type} {a : ℕ} (P : (⟨4, ![1, 1, a, 64]⟩ : Shape).Idx → α)
    (h : (⟨4, ![1, 1, a, 64]⟩ : Shape).ShapeCasts ⟨2, ![a, 64]⟩) (p : Fin a) (d : Fin 64) :
    shapeCast ⟨2, ![a, 64]⟩ P h (ix2 p d) = P (ix4 0 0 p d) :=
  shapeCast_apply P h (ix2 p d) (ix4 0 0 p d) (by
    rw [Shape.rowMajor_val_four, Shape.rowMajor_val_two]
    show ((0 * 1 + 0) * a + p.val) * 64 + d.val = p.val * 64 + d.val
    simp)

/-- A query block scaled by 1/8, at (p, d). -/
theorem scaled_apply (P : Vec Ideal S1x1x512x64 .f32) (p : Fin 512) (d : Fin 64) :
    mulf (shapeCast S512x64 P shapeCasts_S1x1x512x64_S512x64)
        (broadcast S512x64 (Scalar.ofBits (F := Ideal) .f32 0x3E000000#32)) (ix2 p d)
      = P (ix4 0 0 p d) * Cert.Score.scale := by
  show shapeCast S512x64 P shapeCasts_S1x1x512x64_S512x64 (ix2 p d) * _ = _
  rw [squeeze_apply]
  rfl

/-- The product of two joined 128-wide query rows' array against the joined keys' rows, at (p, k): the dot product over
    the first halves plus the dot product over the second halves. -/
theorem product_apply (X Y : FVec Ideal S512x64 .f32) (Z W : FVec Ideal S2048x64 .f32) (p : Fin 512) (k : Fin 2048) :
    matmul dot_S512x128_S2048x128_S512x2048_1_1_0_0_n_n none
        (concatenate S512x128 1 [⟨S512x64, X⟩, ⟨S512x64, Y⟩] concatenates_S512x64_S512x64_S512x128_d1)
        (concatenate S2048x128 1 [⟨S2048x64, Z⟩, ⟨S2048x64, W⟩] concatenates_S2048x64_S2048x64_S2048x128_d1)
        (constant (F := Ideal) S512x2048 .f32 0x00000000#32) (ix2 p k)
      = (∑ d : Fin 64, X (ix2 p d) * Z (ix2 k d)) + ∑ d : Fin 64, Y (ix2 p d) * W (ix2 k d) := by
  refine (Cert.MatmulRows.zero_acc_apply dot_S512x128_S2048x128_S512x2048_1_1_0_0_n_n_wf none _ _ p k).trans ?_
  rw [Cert.ScoreLaw.sum_two_halves]
  congr 1
  · exact Finset.sum_congr rfl fun d _ => by rw [Cert.ColumnJoin.left_apply, Cert.ColumnJoin.left_apply]
  · exact Finset.sum_congr rfl fun d _ => by rw [Cert.ColumnJoin.right_apply, Cert.ColumnJoin.right_apply]

/-- The negated scaled query block, which the kernel writes as 0 minus it, at (p, d). -/
theorem neg_scaled_apply (P : Vec Ideal S1x1x512x64 .f32) (p : Fin 512) (d : Fin 64) :
    subf (broadcast S512x64 (Scalar.ofBits (F := Ideal) .f32 0x00000000#32))
        (mulf (shapeCast S512x64 P shapeCasts_S1x1x512x64_S512x64)
          (broadcast S512x64 (Scalar.ofBits (F := Ideal) .f32 0x3E000000#32))) (ix2 p d)
      = 0 - P (ix4 0 0 p d) * Cert.Score.scale := by
  show Ideal.ofBits .f32 0x00000000#32 - (mulf (shapeCast S512x64 P shapeCasts_S1x1x512x64_S512x64)
          (broadcast S512x64 (Scalar.ofBits (F := Ideal) .f32 0x3E000000#32))) (ix2 p d) = _
  rw [scaled_apply, Ideal.ofBits_zero_f32]

/-- THE SCORE BLOCK AT AN ENTRY: entry (p, k) is the modulus of (q_p / 8) · conj(k_k), its imaginary part written as
    the one joined sum, over row p of the two query blocks and row k of the two key blocks. -/
theorem score_apply (P0 P1 : Vec Ideal S1x1x512x64 .f32) (P2 P3 : Vec Ideal S1x1x2048x64 .f32)
    (p : Fin 512) (k : Fin 2048) :
    k0_pay5 P0 P1 P2 P3 (ix2 p k)
      = Cert.Score.modulus
          (Cert.Score.re (fun d => P0 (ix4 0 0 p d)) (fun d => P1 (ix4 0 0 p d))
            (fun d => P2 (ix4 0 0 k d)) (fun d => P3 (ix4 0 0 k d)))
          (Cert.Score.imJoined (fun d => P0 (ix4 0 0 p d)) (fun d => P1 (ix4 0 0 p d))
            (fun d => P2 (ix4 0 0 k d)) (fun d => P3 (ix4 0 0 k d))) := by
  unfold k0_pay5
  show Ideal.sqrt ((matmul (F := Ideal) _ none _ _ _) (ix2 p k) * (matmul (F := Ideal) _ none _ _ _) (ix2 p k)
      + (matmul (F := Ideal) _ none _ _ _) (ix2 p k) * (matmul (F := Ideal) _ none _ _ _) (ix2 p k)) = _
  rw [product_apply, product_apply]
  simp only [scaled_apply, neg_scaled_apply, squeeze_apply]
  rfl

end Cert.KernelScore

end
-- ==== Proof.Softmax.lean ====
/-
  The softmax of one row of 2048 scores, on the extended reals.

  The row's maximum is the fold of max from -∞; each weight is exp(score - maximum); a probability is its weight
  divided by the sum of the row's weights.  Both programs compute exactly this, so it is stated once, as a function
  of the row.
-/
import Idealize.ShloMosaic.PureOps.Ideal

noncomputable section

open scoped BigOperators

namespace Cert.Softmax

open Idealize.ShloMosaic

/-- The maximum of a row, from -∞. -/
def rowMax (s : Fin 2048 → EReal) : EReal := (Finset.univ : Finset (Fin 2048)).fold max ⊥ s

/-- The unnormalized weight of entry k: exp(s k - max s). -/
def weight (s : Fin 2048 → EReal) (k : Fin 2048) : EReal := Ideal.exp (s k - rowMax s)

/-- The probability of entry k: its weight over the sum of the row's weights. -/
def prob (s : Fin 2048 → EReal) (k : Fin 2048) : EReal := Ideal.div (weight s k) (∑ k', weight s k')

end Cert.Softmax

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.KernelSoftmax.lean ====
/-
  The kernel's probability block, read at an entry.

  From its [512, 2048] score block the body takes each row's maximum, keeps it as a column and repeats it across the
  row, exponentiates the difference, sums each row, and divides.  Entry (p, k) of what it stores is the softmax of score
  row p at k.  The layout steps (the kept column, its repetition, the store's reshaping) are already opened by the
  generated reading of the stored block; what is read here are the two row reductions.
-/
import proofs.«107668_j1365799600287_2_alg».proof.Proof.Gen.KernelIdeal.Value
import proofs.«107668_j1365799600287_2_alg».proof.Proof.Softmax
import proofs.«107668_j1365799600287_2_alg».proof.Proof.Scalars
import proofs.«107668_j1365799600287_2_alg».proof.Proof.LibRowMax
import proofs.«107668_j1365799600287_2_alg».proof.Proof.LibRowOps

noncomputable section

open scoped BigOperators

namespace Cert.KernelSoftmax

open Cert.KernelIdeal Cert.KernelIdeal.Gen Idealize.ShloMosaic Idealize.ShloMosaic.ValueIdx

/-- The row maximum of a score block, at row p. -/
theorem rowMax_apply (S : FVec Ideal S512x2048 .f32) (p : Fin 512) :
    multiReduction .maximumf [1] S512 S 0xFF800000#32 reduces_S512x2048_S512 (.inl rfl) rfl (ix1 p)
      = Cert.Softmax.rowMax (fun k => S (ix2 p k)) :=
  (Cert.RowMax.max_over_columns_apply S reduces_S512x2048_S512 (.inl rfl) rfl p).trans (by
    rw [Cert.Scalars.ofBits_neg_inf]; rfl)

/-- The weights of a score block, at (p, k). -/
theorem weight_apply (S : FVec Ideal S512x2048 .f32) (p : Fin 512) (k : Fin 2048) :
    exp (subf S (broadcastTo S512x2048 (shapeCast S512x1
        (multiReduction .maximumf [1] S512 S 0xFF800000#32 reduces_S512x2048_S512 (.inl rfl) rfl)
        shapeCasts_S512_S512x1) broadcasts_S512x1_S512x2048)) (ix2 p k)
      = Cert.Softmax.weight (fun k' => S (ix2 p k')) k := by
  show Ideal.exp (S (ix2 p k) - broadcastTo S512x2048 (shapeCast S512x1
        (multiReduction .maximumf [1] S512 S 0xFF800000#32 reduces_S512x2048_S512 (.inl rfl) rfl)
        shapeCasts_S512_S512x1) broadcasts_S512x1_S512x2048 (ix2 p k)) = _
  rw [Cert.RowOps.column_repeated_apply, rowMax_apply]
  rfl

/-- The row sum of the weights of a score block, at row p. -/
theorem rowSum_apply (S : FVec Ideal S512x2048 .f32) (p : Fin 512) :
    multiReduction .add [1] S512 (exp (subf S (broadcastTo S512x2048 (shapeCast S512x1
        (multiReduction .maximumf [1] S512 S 0xFF800000#32 reduces_S512x2048_S512 (.inl rfl) rfl)
        shapeCasts_S512_S512x1) broadcasts_S512x1_S512x2048))) 0x00000000#32 reduces_S512x2048_S512 (.inl rfl) rfl (ix1 p)
      = ∑ k : Fin 2048, Cert.Softmax.weight (fun k' => S (ix2 p k')) k :=
  (Cert.RowOps.sum_over_columns_apply _ reduces_S512x2048_S512 (.inl rfl) rfl p).trans
    (Finset.sum_congr rfl fun k _ => weight_apply S p k)

/-- The probability block as the body holds it (before the store reshapes it), at (p, k). -/
theorem attn_apply (S : FVec Ideal S512x2048 .f32) (p : Fin 512) (k : Fin 2048) :
    k0_pay1 S (ix2 p k) = Cert.Softmax.prob (fun k' => S (ix2 p k')) k := by
  unfold k0_pay1
  show Ideal.div (exp (subf S (broadcastTo S512x2048 (shapeCast S512x1
        (multiReduction .maximumf [1] S512 S 0xFF800000#32 reduces_S512x2048_S512 (.inl rfl) rfl)
        shapeCasts_S512_S512x1) broadcasts_S512x1_S512x2048)) (ix2 p k))
      (broadcastTo S512x2048 (shapeCast S512x1 (multiReduction .add [1] S512 (exp (subf S (broadcastTo S512x2048
        (shapeCast S512x1 (multiReduction .maximumf [1] S512 S 0xFF800000#32 reduces_S512x2048_S512 (.inl rfl) rfl)
        shapeCasts_S512_S512x1) broadcasts_S512x1_S512x2048))) 0x00000000#32 reduces_S512x2048_S512 (.inl rfl) rfl)
        shapeCasts_S512_S512x1) broadcasts_S512x1_S512x2048 (ix2 p k)) = _
  rw [weight_apply, Cert.RowOps.column_repeated_apply, rowSum_apply]
  rfl

/-- THE PROBABILITY BLOCK AT AN ENTRY: what the body stores at (0, 0, p, k) is the softmax of score row p at k. -/
theorem prob_apply (P0 P1 : Vec Ideal S1x1x512x64 .f32) (P2 P3 : Vec Ideal S1x1x2048x64 .f32)
    (p : Fin 512) (k : Fin 2048) :
    Cert.KernelIdeal.Value.E7 (F := Ideal) P0 P1 P2 P3 (ix4 0 0 p k)
      = Cert.Softmax.prob (fun k' => k0_pay5 P0 P1 P2 P3 (ix2 p k')) k := by
  have e0 : Cert.KernelIdeal.Value.ix7_0 (ix4 (0 : Fin 1) (0 : Fin 1) p k) = ix2 p k :=
    funext fun a => by match a with | ⟨0, _⟩ => rfl | ⟨1, _⟩ => rfl
  have e1 : Cert.KernelIdeal.Value.ix7_1 (ix4 (0 : Fin 1) (0 : Fin 1) p k) = ix1 p :=
    funext fun a => by match a with | ⟨0, _⟩ => rfl
  have e2 : Cert.KernelIdeal.Value.ix7_2 (ix4 (0 : Fin 1) (0 : Fin 1) p k) = ix1 p :=
    funext fun a => by match a with | ⟨0, _⟩ => rfl
  dsimp only [Cert.KernelIdeal.Value.E7]
  generalize k0_pay5 P0 P1 P2 P3 = S
  show Ideal.div (Ideal.exp (S (Cert.KernelIdeal.Value.ix7_0 (ix4 0 0 p k)) - _)) _ = _
  rw [e0, e1, e2, rowMax_apply, rowSum_apply]
  rfl

end Cert.KernelSoftmax

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.KernelOut.lean ====
/-
  The kernel's output block, read at an entry.

  The body multiplies its [512, 2048] probability block by the values laid side by side, [vr | vi] of shape [2048, 128]:
  one product gives both parts of the attended value, columns 0–63 the real part and columns 64–127 the imaginary
  part.  It slices the two halves apart, gives each a new last axis of length one, and joins them along that axis, so
  the stored block is [512, 64, 2] with the real part at last index 0 and the imaginary part at last index 1.
  Entry (p, e, c) is therefore the sum over the keys k of probability (p, k) times the value's part c at (k, e).
-/
import proofs.«107668_j1365799600287_2_alg».proof.Proof.KernelScore
import proofs.«107668_j1365799600287_2_alg».proof.Proof.KernelSoftmax
import proofs.«107668_j1365799600287_2_alg».proof.Proof.LibPlainMatmul

noncomputable section

open scoped BigOperators

namespace Cert.KernelOut

open Cert.KernelIdeal Cert.KernelIdeal.Gen Idealize.ShloMosaic Idealize.ShloMosaic.ValueIdx

/-- The values laid side by side, at a column of the first half: the real part. -/
theorem values_left_apply (P4 P5 : Vec Ideal S1x1x2048x64 .f32) (k : Fin 2048) (e : Fin 64) :
    k0_pay4 P4 P5 (ix2 k ⟨e.val, by omega⟩) = P4 (ix4 0 0 k e) := by
  unfold k0_pay4
  rw [Cert.ColumnJoin.left_apply, Cert.KernelScore.squeeze_apply]

/-- The values laid side by side, at a column of the second half: the imaginary part. -/
theorem values_right_apply (P4 P5 : Vec Ideal S1x1x2048x64 .f32) (k : Fin 2048) (e : Fin 64) :
    k0_pay4 P4 P5 (ix2 k ⟨64 + e.val, by omega⟩) = P5 (ix4 0 0 k e) := by
  unfold k0_pay4
  rw [Cert.ColumnJoin.right_apply, Cert.KernelScore.squeeze_apply]

/-- The product of the probabilities with the side-by-side values, at (p, j): the sum over the keys. -/
theorem attended_apply (V : FVec Ideal S2048x128 .f32) (S : FVec Ideal S512x2048 .f32) (p : Fin 512) (j : Fin 128) :
    matmul dot_S512x2048_S2048x128_S512x128_1_0_0_1_n_n none (k0_pay1 S) V
        (constant (F := Ideal) S512x128 .f32 0x00000000#32) (ix2 p j)
      = ∑ k : Fin 2048, Cert.Softmax.prob (fun k' => S (ix2 p k')) k * V (ix2 k j) := by
  refine (Cert.PlainMatmul.zero_acc_apply dot_S512x2048_S2048x128_S512x128_1_0_0_1_n_n_wf none _ _ p j).trans ?_
  exact Finset.sum_congr rfl fun k _ => by rw [Cert.KernelSoftmax.attn_apply]

/-- THE OUTPUT BLOCK, REAL SLOT: entry (0, 0, p, e, 0) is Σ_k probability (p, k) · vr (k, e). -/
theorem out_re_apply (P4 P5 : Vec Ideal S1x1x2048x64 .f32) (S : FVec Ideal S512x2048 .f32) (p : Fin 512) (e : Fin 64) :
    k0_pay3 (k0_pay4 P4 P5) S (ix5 0 0 p e 0)
      = ∑ k : Fin 2048, Cert.Softmax.prob (fun k' => S (ix2 p k')) k * P4 (ix4 0 0 k e) := by
  unfold k0_pay3
  refine (shapeCast_apply _ _ (ix5 (0 : Fin 1) (0 : Fin 1) p e (0 : Fin 2)) (ix3 p e (0 : Fin 2)) (by
    rw [Shape.rowMajor_val_three, Shape.rowMajor_val_five]
    show (p.val * 64 + e.val) * 2 + 0 = (((0 * 1 + 0) * 512 + p.val) * 64 + e.val) * 2 + 0
    omega)).trans ?_
  refine (concatenate_pair_apply_left (s₁ := S512x64x1) (s₂ := S512x64x1) 2 _ _ _ (ix3 p e (0 : Fin 2)) rfl (ix3 p e (0 : Fin 1)) (fun b => by
    match b with | ⟨0, _⟩ => rfl | ⟨1, _⟩ => rfl | ⟨2, _⟩ => rfl)).trans ?_
  refine (shapeCast_apply _ _ (ix3 p e (0 : Fin 1)) (ix2 p e) (by
    rw [Shape.rowMajor_val_two, Shape.rowMajor_val_three]
    show p.val * 64 + e.val = (p.val * 64 + e.val) * 1 + 0
    omega)).trans ?_
  refine (extractStridedSlice_apply _ _ _ (ix2 p e) (ix2 p ⟨e.val, by omega⟩) (fun a => by
    match a with
    | ⟨0, _⟩ => show p.val = 0 + p.val; omega
    | ⟨1, _⟩ => show e.val = 0 + e.val; omega)).trans ?_
  refine (attended_apply _ S p _).trans ?_
  exact Finset.sum_congr rfl fun k _ => by rw [values_left_apply]

/-- THE OUTPUT BLOCK, IMAGINARY SLOT: entry (0, 0, p, e, 1) is Σ_k probability (p, k) · vi (k, e). -/
theorem out_im_apply (P4 P5 : Vec Ideal S1x1x2048x64 .f32) (S : FVec Ideal S512x2048 .f32) (p : Fin 512) (e : Fin 64) :
    k0_pay3 (k0_pay4 P4 P5) S (ix5 0 0 p e 1)
      = ∑ k : Fin 2048, Cert.Softmax.prob (fun k' => S (ix2 p k')) k * P5 (ix4 0 0 k e) := by
  unfold k0_pay3
  refine (shapeCast_apply _ _ (ix5 (0 : Fin 1) (0 : Fin 1) p e (1 : Fin 2)) (ix3 p e (1 : Fin 2)) (by
    rw [Shape.rowMajor_val_three, Shape.rowMajor_val_five]
    show (p.val * 64 + e.val) * 2 + 1 = (((0 * 1 + 0) * 512 + p.val) * 64 + e.val) * 2 + 1
    omega)).trans ?_
  refine (concatenate_pair_apply_right (s₁ := S512x64x1) (s₂ := S512x64x1) 2 _ _ _ (ix3 p e (1 : Fin 2)) rfl rfl (ix3 p e (0 : Fin 1))
    (fun b hb => by
      match b with
      | ⟨0, _⟩ => rfl
      | ⟨1, _⟩ => rfl
      | ⟨2, _⟩ => exact absurd rfl hb)
    (by show 0 + 1 = 1; rfl)).trans ?_
  refine (shapeCast_apply _ _ (ix3 p e (0 : Fin 1)) (ix2 p e) (by
    rw [Shape.rowMajor_val_two, Shape.rowMajor_val_three]
    show p.val * 64 + e.val = (p.val * 64 + e.val) * 1 + 0
    omega)).trans ?_
  refine (extractStridedSlice_apply _ _ _ (ix2 p e) (ix2 p ⟨64 + e.val, by omega⟩) (fun a => by
    match a with
    | ⟨0, _⟩ => show p.val = 0 + p.val; omega
    | ⟨1, _⟩ => show 64 + e.val = 64 + e.val; rfl)).trans ?_
  refine (attended_apply _ S p _).trans ?_
  exact Finset.sum_congr rfl fun k _ => by rw [values_right_apply]

end Cert.KernelOut

end
-- ==== Proof.RefScore.lean ====
/-
  The reference's score array, read at an entry.

  The reference divides both query parts by 8, takes four batched products over the 64 entries of a row —
  qr·kr, qi·ki, qi·kr, qr·ki —, adds the first two for the real part, subtracts the last from the third for the imaginary
  part, and returns the modulus.  At (b, h, q, k) that is the score of query row (b, h, q) against key row (b, h, k);
  dividing by 8 is multiplying by 1/8 on every extended real.
-/
import proofs.«107668_j1365799600287_2_alg».proof.Proof.RefReadP
import proofs.«107668_j1365799600287_2_alg».proof.Proof.ScoreLaw

noncomputable section

open scoped BigOperators

namespace Cert.RefScore

open Cert.ReferenceIdeal Cert.ReferenceIdeal.ReadP Idealize.ShloMosaic Idealize.ShloMosaic.ValueIdx

/-- THE REFERENCE'S SCORE AT AN ENTRY: the modulus of (q / 8) · conj(k) over row (b, h, q) of the queries and row
    (b, h, k) of the keys, its imaginary part written as the difference of two sums. -/
theorem score_apply (x0 x1 x2 x3 : (⟨S4x16x2048x64, .f32⟩ : BufTy).Contents (Elt Ideal))
    (b : Fin 4) (h : Fin 16) (q k : Fin 2048) :
    val_main_v13 (F := Ideal) x0 x1 x2 x3 (ix4 b h q k)
      = Cert.Score.modulus
          (Cert.Score.re (fun d => x0 (ix4 b h q d)) (fun d => x1 (ix4 b h q d))
            (fun d => x2 (ix4 b h k d)) (fun d => x3 (ix4 b h k d)))
          (Cert.Score.imDiff (fun d => x0 (ix4 b h q d)) (fun d => x1 (ix4 b h q d))
            (fun d => x2 (ix4 b h k d)) (fun d => x3 (ix4 b h k d))) := by
  have hl4 : ∀ d, lidx_main_v4 (ix4 b h q k) d = ix4 b h q d := fun d => funext fun a => Fin.ext (by
    match a with | ⟨0, _⟩ => rfl | ⟨1, _⟩ => rfl | ⟨2, _⟩ => rfl | ⟨3, _⟩ => rfl)
  have hr4 : ∀ d, ridx_main_v4 (ix4 b h q k) d = ix4 b h k d := fun d => funext fun a => Fin.ext (by
    match a with | ⟨0, _⟩ => rfl | ⟨1, _⟩ => rfl | ⟨2, _⟩ => rfl | ⟨3, _⟩ => rfl)
  have hl5 : ∀ d, lidx_main_v5 (ix4 b h q k) d = ix4 b h q d := fun d => funext fun a => Fin.ext (by
    match a with | ⟨0, _⟩ => rfl | ⟨1, _⟩ => rfl | ⟨2, _⟩ => rfl | ⟨3, _⟩ => rfl)
  have hr5 : ∀ d, ridx_main_v5 (ix4 b h q k) d = ix4 b h k d := fun d => funext fun a => Fin.ext (by
    match a with | ⟨0, _⟩ => rfl | ⟨1, _⟩ => rfl | ⟨2, _⟩ => rfl | ⟨3, _⟩ => rfl)
  have hl7 : ∀ d, lidx_main_v7 (ix4 b h q k) d = ix4 b h q d := fun d => funext fun a => Fin.ext (by
    match a with | ⟨0, _⟩ => rfl | ⟨1, _⟩ => rfl | ⟨2, _⟩ => rfl | ⟨3, _⟩ => rfl)
  have hr7 : ∀ d, ridx_main_v7 (ix4 b h q k) d = ix4 b h k d := fun d => funext fun a => Fin.ext (by
    match a with | ⟨0, _⟩ => rfl | ⟨1, _⟩ => rfl | ⟨2, _⟩ => rfl | ⟨3, _⟩ => rfl)
  have hl8 : ∀ d, lidx_main_v8 (ix4 b h q k) d = ix4 b h q d := fun d => funext fun a => Fin.ext (by
    match a with | ⟨0, _⟩ => rfl | ⟨1, _⟩ => rfl | ⟨2, _⟩ => rfl | ⟨3, _⟩ => rfl)
  have hr8 : ∀ d, ridx_main_v8 (ix4 b h q k) d = ix4 b h k d := fun d => funext fun a => Fin.ext (by
    match a with | ⟨0, _⟩ => rfl | ⟨1, _⟩ => rfl | ⟨2, _⟩ => rfl | ⟨3, _⟩ => rfl)
  rw [val_main_v13_apply, val_main_v12_apply, val_main_v10_apply, val_main_v11_apply, val_main_v6_apply,
    val_main_v9_apply, val_main_v4_apply, val_main_v5_apply, val_main_v7_apply, val_main_v8_apply]
  simp only [hl4, hr4, hl5, hr5, hl7, hr7, hl8, hr8, val_main_v1_apply, val_main_v3_apply, val_main_v0_apply,
    val_main_v2_apply, val_main_cst_apply, val_main_cst_0_apply, Ideal.hostUnary_sqrt_def, Ideal.addf_def,
    Ideal.mulf_def, Ideal.subf_def, Ideal.hostDivf_def, Ideal.ofBits_def, Cert.Scalars.div_eight]
  rfl

end Cert.RefScore

end
-- ==== Proof.RefSoftmax.lean ====
/-
  The reference's probability array, read at an entry.

  jax's softmax over the last axis takes the maximum of each row of scores (a reduce by maximum from -∞, then a maximum
  with -∞ again, which changes nothing), keeps it along a unit axis and repeats it, exponentiates the difference, sums
  each row from 0, and divides.  At (b, h, q, k) that is the softmax of score row (b, h, q) at k.
-/
import proofs.«107668_j1365799600287_2_alg».proof.Proof.RefReadP
import proofs.«107668_j1365799600287_2_alg».proof.Proof.Softmax
import proofs.«107668_j1365799600287_2_alg».proof.Proof.Scalars

noncomputable section

open scoped BigOperators

namespace Cert.RefSoftmax

open Cert.ReferenceIdeal Cert.ReferenceIdeal.Gen Cert.ReferenceIdeal.ReadP Idealize.ShloMosaic Idealize.ShloMosaic.ValueIdx

/-- The reduce by maximum over the last axis, at row (b, h, q): the fold of max from -∞ over the row's scores. -/
theorem rowMax_apply (x0 x1 x2 x3 : (⟨S4x16x2048x64, .f32⟩ : BufTy).Contents (Elt Ideal))
    (b : Fin 4) (h : Fin 16) (q : Fin 2048) :
    val_main_v14 (F := Ideal) x0 x1 x2 x3 (ix3 b h q)
      = Cert.Softmax.rowMax (fun k => val_main_v13 (F := Ideal) x0 x1 x2 x3 (ix4 b h q k)) := by
  unfold val_main_v14
  generalize val_main_v13 (F := Ideal) x0 x1 x2 x3 = y0
  show Host.reduce (max : EReal → EReal → EReal) y0 (val_main_cst_1 (F := Ideal))
      reducesTo_S4x16x2048x2048_S4x16x2048_d3 h_S_ (ix3 b h q) = _
  rw [Host.reduce_eq_fold_single max y0 _ reducesTo_S4x16x2048x2048_S4x16x2048_d3 (by decide) h_S_]
  unfold Cert.Softmax.rowMax
  have hinit : val_main_cst_1 (F := Ideal) (Shape.Idx.first h_S_) = ⊥ := Cert.Scalars.ofBits_neg_inf
  rw [hinit]
  refine Finset.fold_congr fun k _ => ?_
  exact congrArg y0 (funext fun a => Fin.ext (by
    match a with | ⟨0, _⟩ => rfl | ⟨1, _⟩ => rfl | ⟨2, _⟩ => rfl | ⟨3, _⟩ => rfl))

/-- The reference's weights, at (b, h, q, k): exp of the score less the row's maximum (the second maximum, with -∞,
    returns its other argument). -/
theorem weight_apply (x0 x1 x2 x3 : (⟨S4x16x2048x64, .f32⟩ : BufTy).Contents (Elt Ideal))
    (b : Fin 4) (h : Fin 16) (q k : Fin 2048) :
    val_main_v20 (F := Ideal) x0 x1 x2 x3 (ix4 b h q k)
      = Cert.Softmax.weight (fun k' => val_main_v13 (F := Ideal) x0 x1 x2 x3 (ix4 b h q k')) k := by
  have hi : idx_main_v17 (idx_main_v18 (ix4 b h q k)) = ix3 b h q := funext fun a => Fin.ext (by
    match a with | ⟨0, _⟩ => rfl | ⟨1, _⟩ => rfl | ⟨2, _⟩ => rfl)
  rw [val_main_v20_apply, val_main_v19_apply, val_main_v18_apply, val_main_v17_apply, hi, val_main_v16_apply,
    val_main_v15_apply, val_main_cst_2_apply, rowMax_apply]
  simp only [Ideal.hostUnary_exp_def, Ideal.subf_def, Ideal.maximumf_def, Ideal.ofBits_def,
    Cert.Scalars.ofBits_neg_inf, max_bot_left]
  rfl

/-- THE REFERENCE'S PROBABILITY AT AN ENTRY: at (b, h, q, k) the softmax of score row (b, h, q) at k (the row sum
    starts from 0, which adds nothing). -/
theorem prob_apply (x0 x1 x2 x3 : (⟨S4x16x2048x64, .f32⟩ : BufTy).Contents (Elt Ideal))
    (b : Fin 4) (h : Fin 16) (q k : Fin 2048) :
    val_main_v24 (F := Ideal) x0 x1 x2 x3 (ix4 b h q k)
      = Cert.Softmax.prob (fun k' => val_main_v13 (F := Ideal) x0 x1 x2 x3 (ix4 b h q k')) k := by
  have hi : idx_main_v22 (idx_main_v23 (ix4 b h q k)) = ix3 b h q := funext fun a => Fin.ext (by
    match a with | ⟨0, _⟩ => rfl | ⟨1, _⟩ => rfl | ⟨2, _⟩ => rfl)
  have hs : ∀ k', idx_main_v21 (ix3 b h q) k' = ix4 b h q k' := fun k' => funext fun a => Fin.ext (by
    match a with | ⟨0, _⟩ => rfl | ⟨1, _⟩ => rfl | ⟨2, _⟩ => rfl | ⟨3, _⟩ => rfl)
  rw [val_main_v24_apply, val_main_v23_apply, val_main_v22_apply, hi, val_main_v21_apply, weight_apply]
  simp only [hs, weight_apply, val_main_cst_3_apply, Ideal.hostDivf_def, Ideal.ofBits_def, Ideal.ofBits_zero_f32,
    zero_add]
  rfl

end Cert.RefSoftmax

end
-- ==== Proof.RefOut.lean ====
/-
  The reference's output array, read at an entry.

  The reference multiplies the probabilities by the real values and by the imaginary values in two batched products,
  gives each result a new last axis of length one, and joins the two along it (jnp.stack).  At (b, h, q, e, c) the result
  is the sum over the keys k of probability (b, h, q, k) times the value's part c at (b, h, k, e).
-/
import proofs.«107668_j1365799600287_2_alg».proof.Proof.RefSoftmax

noncomputable section

open scoped BigOperators

namespace Cert.RefOut

open Cert.ReferenceIdeal Cert.ReferenceIdeal.Gen Cert.ReferenceIdeal.ReadP Idealize.ShloMosaic Idealize.ShloMosaic.ValueIdx

/-- The product with the real values, at (b, h, q, e). -/
theorem attended_re_apply (x0 x1 x2 x3 x4 : (⟨S4x16x2048x64, .f32⟩ : BufTy).Contents (Elt Ideal))
    (b : Fin 4) (h : Fin 16) (q : Fin 2048) (e : Fin 64) :
    val_main_v25 (F := Ideal) x0 x1 x2 x3 x4 (ix4 b h q e)
      = ∑ k : Fin 2048, Cert.Softmax.prob (fun k' => val_main_v13 (F := Ideal) x0 x1 x2 x3 (ix4 b h q k')) k
          * x4 (ix4 b h k e) := by
  have hl : ∀ k, lidx_main_v25 (ix4 b h q e) k = ix4 b h q k := fun k => funext fun a => Fin.ext (by
    match a with | ⟨0, _⟩ => rfl | ⟨1, _⟩ => rfl | ⟨2, _⟩ => rfl | ⟨3, _⟩ => rfl)
  have hr : ∀ k, ridx_main_v25 (ix4 b h q e) k = ix4 b h k e := fun k => funext fun a => Fin.ext (by
    match a with | ⟨0, _⟩ => rfl | ⟨1, _⟩ => rfl | ⟨2, _⟩ => rfl | ⟨3, _⟩ => rfl)
  rw [val_main_v25_apply]
  simp only [hl, hr, Cert.RefSoftmax.prob_apply]

/-- The product with the imaginary values, at (b, h, q, e). -/
theorem attended_im_apply (x0 x1 x2 x3 x5 : (⟨S4x16x2048x64, .f32⟩ : BufTy).Contents (Elt Ideal))
    (b : Fin 4) (h : Fin 16) (q : Fin 2048) (e : Fin 64) :
    val_main_v26 (F := Ideal) x0 x1 x2 x3 x5 (ix4 b h q e)
      = ∑ k : Fin 2048, Cert.Softmax.prob (fun k' => val_main_v13 (F := Ideal) x0 x1 x2 x3 (ix4 b h q k')) k
          * x5 (ix4 b h k e) := by
  have hl : ∀ k, lidx_main_v26 (ix4 b h q e) k = ix4 b h q k := fun k => funext fun a => Fin.ext (by
    match a with | ⟨0, _⟩ => rfl | ⟨1, _⟩ => rfl | ⟨2, _⟩ => rfl | ⟨3, _⟩ => rfl)
  have hr : ∀ k, ridx_main_v26 (ix4 b h q e) k = ix4 b h k e := fun k => funext fun a => Fin.ext (by
    match a with | ⟨0, _⟩ => rfl | ⟨1, _⟩ => rfl | ⟨2, _⟩ => rfl | ⟨3, _⟩ => rfl)
  rw [val_main_v26_apply]
  simp only [hl, hr, Cert.RefSoftmax.prob_apply]

/-- THE REFERENCE'S OUTPUT, REAL SLOT: at (b, h, q, e, 0), Σ_k probability (b, h, q, k) · vr (b, h, k, e). -/
theorem out_re_apply (x0 x1 x2 x3 x4 x5 : (⟨S4x16x2048x64, .f32⟩ : BufTy).Contents (Elt Ideal))
    (b : Fin 4) (h : Fin 16) (q : Fin 2048) (e : Fin 64) :
    val_main_v29 (F := Ideal) x0 x1 x2 x3 x4 x5 (ix5 b h q e 0)
      = ∑ k : Fin 2048, Cert.Softmax.prob (fun k' => val_main_v13 (F := Ideal) x0 x1 x2 x3 (ix4 b h q k')) k
          * x4 (ix4 b h k e) := by
  have hi : idx_main_v27 (ix5 b h q e (0 : Fin 1)) = ix4 b h q e := funext fun a => Fin.ext (by
    match a with | ⟨0, _⟩ => rfl | ⟨1, _⟩ => rfl | ⟨2, _⟩ => rfl | ⟨3, _⟩ => rfl)
  unfold val_main_v29
  refine (concatenate_pair_apply_left (s₁ := S4x16x2048x64x1) (s₂ := S4x16x2048x64x1) 4 _ _ _
    (ix5 b h q e (0 : Fin 2)) rfl (ix5 b h q e (0 : Fin 1)) (fun a => by
      match a with | ⟨0, _⟩ => rfl | ⟨1, _⟩ => rfl | ⟨2, _⟩ => rfl | ⟨3, _⟩ => rfl | ⟨4, _⟩ => rfl)).trans ?_
  rw [val_main_v27_apply, hi, attended_re_apply]

/-- THE REFERENCE'S OUTPUT, IMAGINARY SLOT: at (b, h, q, e, 1), Σ_k probability (b, h, q, k) · vi (b, h, k, e). -/
theorem out_im_apply (x0 x1 x2 x3 x4 x5 : (⟨S4x16x2048x64, .f32⟩ : BufTy).Contents (Elt Ideal))
    (b : Fin 4) (h : Fin 16) (q : Fin 2048) (e : Fin 64) :
    val_main_v29 (F := Ideal) x0 x1 x2 x3 x4 x5 (ix5 b h q e 1)
      = ∑ k : Fin 2048, Cert.Softmax.prob (fun k' => val_main_v13 (F := Ideal) x0 x1 x2 x3 (ix4 b h q k')) k
          * x5 (ix4 b h k e) := by
  have hi : idx_main_v28 (ix5 b h q e (0 : Fin 1)) = ix4 b h q e := funext fun a => Fin.ext (by
    match a with | ⟨0, _⟩ => rfl | ⟨1, _⟩ => rfl | ⟨2, _⟩ => rfl | ⟨3, _⟩ => rfl)
  unfold val_main_v29
  refine (concatenate_pair_apply_right (s₁ := S4x16x2048x64x1) (s₂ := S4x16x2048x64x1) 4 _ _ _
    (ix5 b h q e (1 : Fin 2)) rfl rfl (ix5 b h q e (0 : Fin 1))
    (fun a ha => by
      match a with
      | ⟨0, _⟩ => rfl
      | ⟨1, _⟩ => rfl
      | ⟨2, _⟩ => rfl
      | ⟨3, _⟩ => rfl
      | ⟨4, _⟩ => exact absurd rfl ha)
    (by show 0 + 1 = 1; rfl)).trans ?_
  rw [val_main_v28_apply, hi, attended_im_apply]

end Cert.RefOut

end
-- ==== Proof.PointBridge.lean ====
/-
  One grid point: what the kernel's body stores is the reference's two results on the point's rows.

  Fix a batch b, a head h and a query tile qt.  Suppose six blocks hold, of six argument arrays, the 512 query rows
  qt·512 + p of (b, h) (real and imaginary part) and all 2048 key and value rows of (b, h) (real and imaginary part), and
  suppose the queries' real part and the keys' imaginary part hold only reals.  Then the probability block the body
  stores is the reference's softmax on those query rows, and the output block it stores is the reference's stacked
  attended values there.  The scores agree entry by entry — the one place where the two spellings of the imaginary part
  meet, by the law for real entries — and everything after the scores is the same function of a row of scores.
-/
import proofs.«107668_j1365799600287_2_alg».proof.Proof.KernelOut
import proofs.«107668_j1365799600287_2_alg».proof.Proof.RefScore
import proofs.«107668_j1365799600287_2_alg».proof.Proof.RefOut

noncomputable section

open scoped BigOperators

namespace Cert.Point

open Idealize.ShloMosaic Idealize.ShloMosaic.ValueIdx
open Cert.KernelIdeal.Gen (k0_pay3 k0_pay4 k0_pay5)
open Cert.ReferenceIdeal.ReadP (val_main_v13 val_main_v24 val_main_v29)

/-- Row p of query tile qt, among the 2048 query rows. -/
def qrow (qt : Fin 4) (p : Fin 512) : Fin 2048 := ⟨qt.val * 512 + p.val, by omega⟩

variable (A0 A1 A2 A3 A4 A5 : (⟨Cert.ReferenceIdeal.S4x16x2048x64, .f32⟩ : BufTy).Contents (Elt Ideal))
variable (hA0 : ∀ i, ∃ r : ℝ, A0 i = r) (hA3 : ∀ i, ∃ r : ℝ, A3 i = r)
variable (P0 P1 : Vec Ideal Cert.KernelIdeal.S1x1x512x64 .f32)
variable (P2 P3 P4 P5 : Vec Ideal Cert.KernelIdeal.S1x1x2048x64 .f32)
variable (b : Fin 4) (h : Fin 16) (qt : Fin 4)
variable (hP0 : ∀ (p : Fin 512) (d : Fin 64), P0 (ix4 0 0 p d) = A0 (ix4 b h (qrow qt p) d))
variable (hP1 : ∀ (p : Fin 512) (d : Fin 64), P1 (ix4 0 0 p d) = A1 (ix4 b h (qrow qt p) d))
variable (hP2 : ∀ (k : Fin 2048) (d : Fin 64), P2 (ix4 0 0 k d) = A2 (ix4 b h k d))
variable (hP3 : ∀ (k : Fin 2048) (d : Fin 64), P3 (ix4 0 0 k d) = A3 (ix4 b h k d))
variable (hP4 : ∀ (k : Fin 2048) (d : Fin 64), P4 (ix4 0 0 k d) = A4 (ix4 b h k d))
variable (hP5 : ∀ (k : Fin 2048) (d : Fin 64), P5 (ix4 0 0 k d) = A5 (ix4 b h k d))

include hA0 hA3 hP0 hP1 hP2 hP3 in
/-- The scores agree: the kernel's joined imaginary part is the reference's difference, the entries being real. -/
theorem score_eq (p : Fin 512) (k : Fin 2048) :
    k0_pay5 P0 P1 P2 P3 (ix2 p k) = val_main_v13 (F := Ideal) A0 A1 A2 A3 (ix4 b h (qrow qt p) k) := by
  rw [Cert.KernelScore.score_apply, Cert.RefScore.score_apply]
  simp only [hP0, hP1, hP2, hP3]
  rw [Cert.Score.imJoined_eq_imDiff _ _ _ _ (fun d => hA0 _) (fun d => hA3 _)]

include hA0 hA3 hP0 hP1 hP2 hP3 in
/-- The score ROWS agree. -/
theorem score_row_eq (p : Fin 512) :
    (fun k' => k0_pay5 P0 P1 P2 P3 (ix2 p k'))
      = fun k' => val_main_v13 (F := Ideal) A0 A1 A2 A3 (ix4 b h (qrow qt p) k') :=
  funext fun k' => score_eq A0 A1 A2 A3 hA0 hA3 P0 P1 P2 P3 b h qt hP0 hP1 hP2 hP3 p k'

include hA0 hA3 hP0 hP1 hP2 hP3 in
/-- THE PROBABILITY BLOCK of the point is the reference's softmax on the point's query rows. -/
theorem attn_eq (y : Cert.KernelIdeal.S1x1x512x2048.Idx) :
    Cert.KernelIdeal.Value.E7 (F := Ideal) P0 P1 P2 P3 y
      = val_main_v24 (F := Ideal) A0 A1 A2 A3 (ix4 b h (qrow qt (y 2)) (y 3)) := by
  obtain ⟨p, k, rfl⟩ : ∃ (p : Fin 512) (k : Fin 2048), y = ix4 (0 : Fin 1) (0 : Fin 1) p k :=
    ⟨y 2, y 3, funext fun a => by
      match a with
      | ⟨0, _⟩ => exact Fin.ext (by have h0 : (y 0).val < 1 := (y 0).isLt; show (y 0).val = 0; omega)
      | ⟨1, _⟩ => exact Fin.ext (by have h1 : (y 1).val < 1 := (y 1).isLt; show (y 1).val = 0; omega)
      | ⟨2, _⟩ => rfl
      | ⟨3, _⟩ => rfl⟩
  show Cert.KernelIdeal.Value.E7 (F := Ideal) P0 P1 P2 P3 (ix4 0 0 p k)
      = val_main_v24 (F := Ideal) A0 A1 A2 A3 (ix4 b h (qrow qt p) k)
  rw [Cert.KernelSoftmax.prob_apply, Cert.RefSoftmax.prob_apply,
    score_row_eq A0 A1 A2 A3 hA0 hA3 P0 P1 P2 P3 b h qt hP0 hP1 hP2 hP3 p]

include hA0 hA3 hP0 hP1 hP2 hP3 hP4 hP5 in
/-- THE OUTPUT BLOCK of the point is the reference's stacked attended values on the point's query rows. -/
theorem out_eq (y : Cert.KernelIdeal.S1x1x512x64x2.Idx) :
    k0_pay3 (k0_pay4 P4 P5) (k0_pay5 P0 P1 P2 P3) y
      = val_main_v29 (F := Ideal) A0 A1 A2 A3 A4 A5 (ix5 b h (qrow qt (y 2)) (y 3) (y 4)) := by
  obtain ⟨p, e, c, rfl⟩ : ∃ (p : Fin 512) (e : Fin 64) (c : Fin 2), y = ix5 (0 : Fin 1) (0 : Fin 1) p e c :=
    ⟨y 2, y 3, y 4, funext fun a => by
      match a with
      | ⟨0, _⟩ => exact Fin.ext (by have h0 : (y 0).val < 1 := (y 0).isLt; show (y 0).val = 0; omega)
      | ⟨1, _⟩ => exact Fin.ext (by have h1 : (y 1).val < 1 := (y 1).isLt; show (y 1).val = 0; omega)
      | ⟨2, _⟩ => rfl
      | ⟨3, _⟩ => rfl
      | ⟨4, _⟩ => rfl⟩
  show k0_pay3 (k0_pay4 P4 P5) (k0_pay5 P0 P1 P2 P3) (ix5 0 0 p e c)
      = val_main_v29 (F := Ideal) A0 A1 A2 A3 A4 A5 (ix5 b h (qrow qt p) e c)
  have two : ∀ z : Fin 2, z = 0 ∨ z = 1 := by decide
  rcases two c with rfl | rfl
  · rw [Cert.KernelOut.out_re_apply, Cert.RefOut.out_re_apply,
      score_row_eq A0 A1 A2 A3 hA0 hA3 P0 P1 P2 P3 b h qt hP0 hP1 hP2 hP3 p]
    exact Finset.sum_congr rfl fun k _ => by rw [hP4]
  · rw [Cert.KernelOut.out_im_apply, Cert.RefOut.out_im_apply,
      score_row_eq A0 A1 A2 A3 hA0 hA3 P0 P1 P2 P3 b h qt hP0 hP1 hP2 hP3 p]
    exact Finset.sum_congr rfl fun k _ => by rw [hP5]

end Cert.Point

end
-- ==== Proof.Blocks.lean ====
/-
  From the grid's 256 points to the two whole arrays.

  The grid is (batch, head, query tile) = (4, 16, 4), row-major: point t is batch t / 64, head (t / 4) mod 16, query tile
  t mod 4.  At point t the two query windows hold rows (t mod 4)·512 … +511 of that batch and head, the four key and
  value windows hold all 2048 rows of it, and the two output windows are written at the same tile.  So what point t
  writes back is, entry by entry, the reference's result on the point's rows (the one-point statement), and since the
  output tiles of the 256 points cover each output array, the arrays after the run ARE the reference's two results.
-/
import proofs.«107668_j1365799600287_2_alg».proof.Proof.Gen.KernelIdeal.Value
import proofs.«107668_j1365799600287_2_alg».proof.Proof.PointBridge

noncomputable section

namespace Cert.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.ReadP (val_main_v24 val_main_v29)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The printed index maps, decided over the grid: at point t every window sits at batch t / 64 and head (t / 4) mod 16;
    the query and output windows at tile t mod 4, the key and value windows at their one block. -/
theorem idx_facts : ∀ t : Fin cfg0.N,
    win0_0.index t = ![t.val / 64, t.val / 4 % 16, t.val % 4, 0]
    ∧ win0_1.index t = ![t.val / 64, t.val / 4 % 16, t.val % 4, 0]
    ∧ win0_2.index t = ![t.val / 64, t.val / 4 % 16, 0, 0]
    ∧ win0_3.index t = ![t.val / 64, t.val / 4 % 16, 0, 0]
    ∧ win0_4.index t = ![t.val / 64, t.val / 4 % 16, 0, 0]
    ∧ win0_5.index t = ![t.val / 64, t.val / 4 % 16, 0, 0]
    ∧ win0_6.index t = ![t.val / 64, t.val / 4 % 16, t.val % 4, 0, 0]
    ∧ win0_7.index t = ![t.val / 64, t.val / 4 % 16, t.val % 4, 0] :=
  (by decide +kernel : ∀ t : Fin grid0.N, _)

/-- The batch, the head and the query tile of point t. -/
def pb (t : Fin cfg0.N) : Fin 4 := ⟨t.val / 64, by have ht : t.val < 256 := t.isLt; omega⟩
def ph (t : Fin cfg0.N) : Fin 16 := ⟨t.val / 4 % 16, by omega⟩
def pq (t : Fin cfg0.N) : Fin 4 := ⟨t.val % 4, by omega⟩

/-! ## Each input window's block at a point, as rows of its argument array -/

/-- Input window 0's block at point t holds query rows (t mod 4)·512 + p of batch t / 64, head (t / 4) mod 16. -/
theorem block0 (c : Dev nD) (t : Fin cfg0.N) (p : Fin 512) (d : Fin 64) :
    View.ld (iblk m c 0 t) r0_0 (ix4 0 0 p d)
      = V m c main_arg0 (ix4 (pb t) (ph t) (Cert.Point.qrow (pq t) p) d) := by
  obtain ⟨e0, e1, e2, e3, e4, e5, e6, e7⟩ := idx_facts t
  have a0 : win0_0.index t (0 : Fin 4) = t.val / 64 := congrFun e0 0
  have a1 : win0_0.index t (1 : Fin 4) = t.val / 4 % 16 := congrFun e0 1
  have a2 : win0_0.index t (2 : Fin 4) = t.val % 4 := congrFun e0 2
  have a3 : win0_0.index t (3 : Fin 4) = 0 := congrFun e0 3
  refine (congrFun (View.ld_unit_zero (S := S1x1x512x64) hz4 _ (iblk m c 0 t)) (ix4 0 0 p d)).trans ?_
  show V m c main_arg0 (((cfg0.win 0).blk t).view.emb (ix4 0 0 p d)) = V m c main_arg0 _
  refine congrArg (V m c main_arg0) (funext fun a => Fin.ext ?_)
  match a with
  | ⟨0, _⟩ => show win0_0.index t (0 : Fin 4) * 1 + 1 * 0 = t.val / 64; omega
  | ⟨1, _⟩ => show win0_0.index t (1 : Fin 4) * 1 + 1 * 0 = t.val / 4 % 16; omega
  | ⟨2, _⟩ => show win0_0.index t (2 : Fin 4) * 512 + 1 * p.val = t.val % 4 * 512 + p.val; omega
  | ⟨3, _⟩ => show win0_0.index t (3 : Fin 4) * 64 + 1 * d.val = d.val; omega

/-- Input window 1's block at point t holds query rows (t mod 4)·512 + p of batch t / 64, head (t / 4) mod 16. -/
theorem block1 (c : Dev nD) (t : Fin cfg0.N) (p : Fin 512) (d : Fin 64) :
    View.ld (iblk m c 1 t) r0_0 (ix4 0 0 p d)
      = V m c main_arg1 (ix4 (pb t) (ph t) (Cert.Point.qrow (pq t) p) d) := by
  obtain ⟨e0, e1, e2, e3, e4, e5, e6, e7⟩ := idx_facts t
  have a0 : win0_1.index t (0 : Fin 4) = t.val / 64 := congrFun e1 0
  have a1 : win0_1.index t (1 : Fin 4) = t.val / 4 % 16 := congrFun e1 1
  have a2 : win0_1.index t (2 : Fin 4) = t.val % 4 := congrFun e1 2
  have a3 : win0_1.index t (3 : Fin 4) = 0 := congrFun e1 3
  refine (congrFun (View.ld_unit_zero (S := S1x1x512x64) hz4 _ (iblk m c 1 t)) (ix4 0 0 p d)).trans ?_
  show V m c main_arg1 (((cfg0.win 1).blk t).view.emb (ix4 0 0 p d)) = V m c main_arg1 _
  refine congrArg (V m c main_arg1) (funext fun a => Fin.ext ?_)
  match a with
  | ⟨0, _⟩ => show win0_1.index t (0 : Fin 4) * 1 + 1 * 0 = t.val / 64; omega
  | ⟨1, _⟩ => show win0_1.index t (1 : Fin 4) * 1 + 1 * 0 = t.val / 4 % 16; omega
  | ⟨2, _⟩ => show win0_1.index t (2 : Fin 4) * 512 + 1 * p.val = t.val % 4 * 512 + p.val; omega
  | ⟨3, _⟩ => show win0_1.index t (3 : Fin 4) * 64 + 1 * d.val = d.val; omega

/-- Input window 2's block at point t holds all 2048 rows of batch t / 64, head (t / 4) mod 16. -/
theorem block2 (c : Dev nD) (t : Fin cfg0.N) (k : Fin 2048) (d : Fin 64) :
    View.ld (iblk m c 2 t) r0_1 (ix4 0 0 k d) = V m c main_arg2 (ix4 (pb t) (ph t) k d) := by
  obtain ⟨e0, e1, e2, e3, e4, e5, e6, e7⟩ := idx_facts t
  have a0 : win0_2.index t (0 : Fin 4) = t.val / 64 := congrFun e2 0
  have a1 : win0_2.index t (1 : Fin 4) = t.val / 4 % 16 := congrFun e2 1
  have a2 : win0_2.index t (2 : Fin 4) = 0 := congrFun e2 2
  have a3 : win0_2.index t (3 : Fin 4) = 0 := congrFun e2 3
  refine (congrFun (View.ld_unit_zero (S := S1x1x2048x64) hz4 _ (iblk m c 2 t)) (ix4 0 0 k d)).trans ?_
  show V m c main_arg2 (((cfg0.win 2).blk t).view.emb (ix4 0 0 k d)) = V m c main_arg2 _
  refine congrArg (V m c main_arg2) (funext fun a => Fin.ext ?_)
  match a with
  | ⟨0, _⟩ => show win0_2.index t (0 : Fin 4) * 1 + 1 * 0 = t.val / 64; omega
  | ⟨1, _⟩ => show win0_2.index t (1 : Fin 4) * 1 + 1 * 0 = t.val / 4 % 16; omega
  | ⟨2, _⟩ => show win0_2.index t (2 : Fin 4) * 2048 + 1 * k.val = k.val; omega
  | ⟨3, _⟩ => show win0_2.index t (3 : Fin 4) * 64 + 1 * d.val = d.val; omega

/-- Input window 3's block at point t holds all 2048 rows of batch t / 64, head (t / 4) mod 16. -/
theorem block3 (c : Dev nD) (t : Fin cfg0.N) (k : Fin 2048) (d : Fin 64) :
    View.ld (iblk m c 3 t) r0_1 (ix4 0 0 k d) = V m c main_arg3 (ix4 (pb t) (ph t) k d) := by
  obtain ⟨e0, e1, e2, e3, e4, e5, e6, e7⟩ := idx_facts t
  have a0 : win0_3.index t (0 : Fin 4) = t.val / 64 := congrFun e3 0
  have a1 : win0_3.index t (1 : Fin 4) = t.val / 4 % 16 := congrFun e3 1
  have a2 : win0_3.index t (2 : Fin 4) = 0 := congrFun e3 2
  have a3 : win0_3.index t (3 : Fin 4) = 0 := congrFun e3 3
  refine (congrFun (View.ld_unit_zero (S := S1x1x2048x64) hz4 _ (iblk m c 3 t)) (ix4 0 0 k d)).trans ?_
  show V m c main_arg3 (((cfg0.win 3).blk t).view.emb (ix4 0 0 k d)) = V m c main_arg3 _
  refine congrArg (V m c main_arg3) (funext fun a => Fin.ext ?_)
  match a with
  | ⟨0, _⟩ => show win0_3.index t (0 : Fin 4) * 1 + 1 * 0 = t.val / 64; omega
  | ⟨1, _⟩ => show win0_3.index t (1 : Fin 4) * 1 + 1 * 0 = t.val / 4 % 16; omega
  | ⟨2, _⟩ => show win0_3.index t (2 : Fin 4) * 2048 + 1 * k.val = k.val; omega
  | ⟨3, _⟩ => show win0_3.index t (3 : Fin 4) * 64 + 1 * d.val = d.val; omega

/-- Input window 4's block at point t holds all 2048 rows of batch t / 64, head (t / 4) mod 16. -/
theorem block4 (c : Dev nD) (t : Fin cfg0.N) (k : Fin 2048) (d : Fin 64) :
    View.ld (iblk m c 4 t) r0_1 (ix4 0 0 k d) = V m c main_arg4 (ix4 (pb t) (ph t) k d) := by
  obtain ⟨e0, e1, e2, e3, e4, e5, e6, e7⟩ := idx_facts t
  have a0 : win0_4.index t (0 : Fin 4) = t.val / 64 := congrFun e4 0
  have a1 : win0_4.index t (1 : Fin 4) = t.val / 4 % 16 := congrFun e4 1
  have a2 : win0_4.index t (2 : Fin 4) = 0 := congrFun e4 2
  have a3 : win0_4.index t (3 : Fin 4) = 0 := congrFun e4 3
  refine (congrFun (View.ld_unit_zero (S := S1x1x2048x64) hz4 _ (iblk m c 4 t)) (ix4 0 0 k d)).trans ?_
  show V m c main_arg4 (((cfg0.win 4).blk t).view.emb (ix4 0 0 k d)) = V m c main_arg4 _
  refine congrArg (V m c main_arg4) (funext fun a => Fin.ext ?_)
  match a with
  | ⟨0, _⟩ => show win0_4.index t (0 : Fin 4) * 1 + 1 * 0 = t.val / 64; omega
  | ⟨1, _⟩ => show win0_4.index t (1 : Fin 4) * 1 + 1 * 0 = t.val / 4 % 16; omega
  | ⟨2, _⟩ => show win0_4.index t (2 : Fin 4) * 2048 + 1 * k.val = k.val; omega
  | ⟨3, _⟩ => show win0_4.index t (3 : Fin 4) * 64 + 1 * d.val = d.val; omega

/-- Input window 5's block at point t holds all 2048 rows of batch t / 64, head (t / 4) mod 16. -/
theorem block5 (c : Dev nD) (t : Fin cfg0.N) (k : Fin 2048) (d : Fin 64) :
    View.ld (iblk m c 5 t) r0_1 (ix4 0 0 k d) = V m c main_arg5 (ix4 (pb t) (ph t) k d) := by
  obtain ⟨e0, e1, e2, e3, e4, e5, e6, e7⟩ := idx_facts t
  have a0 : win0_5.index t (0 : Fin 4) = t.val / 64 := congrFun e5 0
  have a1 : win0_5.index t (1 : Fin 4) = t.val / 4 % 16 := congrFun e5 1
  have a2 : win0_5.index t (2 : Fin 4) = 0 := congrFun e5 2
  have a3 : win0_5.index t (3 : Fin 4) = 0 := congrFun e5 3
  refine (congrFun (View.ld_unit_zero (S := S1x1x2048x64) hz4 _ (iblk m c 5 t)) (ix4 0 0 k d)).trans ?_
  show V m c main_arg5 (((cfg0.win 5).blk t).view.emb (ix4 0 0 k d)) = V m c main_arg5 _
  refine congrArg (V m c main_arg5) (funext fun a => Fin.ext ?_)
  match a with
  | ⟨0, _⟩ => show win0_5.index t (0 : Fin 4) * 1 + 1 * 0 = t.val / 64; omega
  | ⟨1, _⟩ => show win0_5.index t (1 : Fin 4) * 1 + 1 * 0 = t.val / 4 % 16; omega
  | ⟨2, _⟩ => show win0_5.index t (2 : Fin 4) * 2048 + 1 * k.val = k.val; omega
  | ⟨3, _⟩ => show win0_5.index t (3 : Fin 4) * 64 + 1 * d.val = d.val; omega

/-! ## The two reference results, of the argument arrays as the region finds them -/

/-- The reference's probabilities. -/
abbrev attn (c : Dev nD) : Buf (Elt Ideal) ((c : Thread nD τ).loc main_v0_1) :=
  val_main_v24 (F := Ideal) (V m c main_arg0) (V m c main_arg1) (V m c main_arg2) (V m c main_arg3)

/-- The reference's stacked attended values. -/
abbrev out (c : Dev nD) : Buf (Elt Ideal) ((c : Thread nD τ).loc main_v0_0) :=
  val_main_v29 (F := Ideal) (V m c main_arg0) (V m c main_arg1) (V m c main_arg2) (V m c main_arg3)
    (V m c main_arg4) (V m c main_arg5)

variable (hA0 : ∀ (c : Dev nD) i, ∃ r : ℝ, (V m c main_arg0 i : EReal) = (r : EReal))
variable (hA3 : ∀ (c : Dev nD) i, ∃ r : ℝ, (V m c main_arg3 i : EReal) = (r : EReal))

/-! ## The probability array (output window 7) -/

include hA0 hA3 in
/-- WHAT POINT t WRITES BACK to the probability array is block t of the reference's probabilities. -/
theorem flushed7_eq (c : Dev nD) (t : Fin cfg0.N) :
    (dats m 0 c).flushed 7 t = ((cfg0.win 7).blk t).view.read (Elt Ideal) (attn m c) := by
  obtain ⟨e0, e1, e2, e3, e4, e5, e6, e7⟩ := idx_facts t
  have a0 : win0_7.index t (0 : Fin 4) = t.val / 64 := congrFun e7 0
  have a1 : win0_7.index t (1 : Fin 4) = t.val / 4 % 16 := congrFun e7 1
  have a2 : win0_7.index t (2 : Fin 4) = t.val % 4 := congrFun e7 2
  have a3 : win0_7.index t (3 : Fin 4) = 0 := congrFun e7 3
  refine (Cert.KernelIdeal.Value.flushed7 m c t).trans ?_
  unfold out0_7
  funext j
  have hj0 : (j 0).val < 1 := (j 0).isLt
  have hj1 : (j 1).val < 1 := (j 1).isLt
  show View.canon [⟨r0_2, k0_pay2 (k0_pay5 (View.ld (iblk m c 0 t) r0_0) (View.ld (iblk m c 1 t) r0_0)
      (View.ld (iblk m c 2 t) r0_1) (View.ld (iblk m c 3 t) r0_1))⟩] j
    = attn m c (((cfg0.win 7).blk t).view.emb j)
  refine (Cert.KernelIdeal.Value.canon7_eq (F := Ideal) (View.ld (iblk m c 0 t) r0_0) (View.ld (iblk m c 1 t) r0_0)
    (View.ld (iblk m c 2 t) r0_1) (View.ld (iblk m c 3 t) r0_1) j).trans ?_
  refine (Cert.Point.attn_eq (V m c main_arg0) (V m c main_arg1) (V m c main_arg2) (V m c main_arg3) (hA0 c) (hA3 c)
    (View.ld (iblk m c 0 t) r0_0) (View.ld (iblk m c 1 t) r0_0) (View.ld (iblk m c 2 t) r0_1)
    (View.ld (iblk m c 3 t) r0_1) (pb t) (ph t) (pq t) (block0 m c t) (block1 m c t) (block2 m c t) (block3 m c t)
    j).trans ?_
  refine congrArg (attn m c) (funext fun a => Fin.ext ?_)
  match a with
  | ⟨0, _⟩ => show t.val / 64 = win0_7.index t (0 : Fin 4) * 1 + 1 * (j 0).val; omega
  | ⟨1, _⟩ => show t.val / 4 % 16 = win0_7.index t (1 : Fin 4) * 1 + 1 * (j 1).val; omega
  | ⟨2, _⟩ => show t.val % 4 * 512 + (j 2).val = win0_7.index t (2 : Fin 4) * 512 + 1 * (j 2).val; omega
  | ⟨3, _⟩ => show (j 3).val = win0_7.index t (3 : Fin 4) * 2048 + 1 * (j 3).val; omega

/-- An index of the probability array is in point t's block iff each coordinate is in the block's range on its axis. -/
theorem mem_blk7 (t : Fin cfg0.N) (i : S4x16x2048x2048.Idx) :
    i ∈ ((cfg0.win 7).blk t).view.set ↔ ∀ a : Fin 4, win0_7.index t a * S1x1x512x2048.size a ≤ (i a).val
      ∧ (i a).val < win0_7.index t a * S1x1x512x2048.size a + S1x1x512x2048.size a := by
  show i ∈ ((View.whole main_v0_1).slice (win0_7.rect t)).set ↔ _
  rw [View.set_slice_whole, Rect.mem_set_unit]
  exact Iff.rfl

/-- Every index of the probability array is in the block of the point of its batch, head and query tile. -/
theorem cover7 (i : S4x16x2048x2048.Idx) :
    ∃ t : Fin cfg0.N, (cfg0.win 7).flush t = true ∧ i ∈ ((cfg0.win 7).blk t).view.set := by
  have hi0 : (i 0).val < 4 := (i 0).isLt
  have hi1 : (i 1).val < 16 := (i 1).isLt
  have hi2 : (i 2).val < 2048 := (i 2).isLt
  have hi3 : (i 3).val < 2048 := (i 3).isLt
  have hn : ((i 0).val * 16 + (i 1).val) * 4 + (i 2).val / 512 < 256 := by omega
  obtain ⟨e0, e1, e2, e3, e4, e5, e6, e7⟩ :=
    idx_facts ⟨((i 0).val * 16 + (i 1).val) * 4 + (i 2).val / 512, hn⟩
  have a0 : win0_7.index ⟨((i 0).val * 16 + (i 1).val) * 4 + (i 2).val / 512, hn⟩ (0 : Fin 4)
      = (((i 0).val * 16 + (i 1).val) * 4 + (i 2).val / 512) / 64 := congrFun e7 0
  have a1 : win0_7.index ⟨((i 0).val * 16 + (i 1).val) * 4 + (i 2).val / 512, hn⟩ (1 : Fin 4)
      = (((i 0).val * 16 + (i 1).val) * 4 + (i 2).val / 512) / 4 % 16 := congrFun e7 1
  have a2 : win0_7.index ⟨((i 0).val * 16 + (i 1).val) * 4 + (i 2).val / 512, hn⟩ (2 : Fin 4)
      = (((i 0).val * 16 + (i 1).val) * 4 + (i 2).val / 512) % 4 := congrFun e7 2
  have a3 : win0_7.index ⟨((i 0).val * 16 + (i 1).val) * 4 + (i 2).val / 512, hn⟩ (3 : Fin 4) = 0 := congrFun e7 3
  refine ⟨⟨((i 0).val * 16 + (i 1).val) * 4 + (i 2).val / 512, hn⟩, flush0_7 _, ?_⟩
  rw [mem_blk7]
  intro a
  match a with
  | ⟨0, _⟩ =>
    show win0_7.index _ (0 : Fin 4) * 1 ≤ (i 0).val ∧ (i 0).val < win0_7.index _ (0 : Fin 4) * 1 + 1
    omega
  | ⟨1, _⟩ =>
    show win0_7.index _ (1 : Fin 4) * 1 ≤ (i 1).val ∧ (i 1).val < win0_7.index _ (1 : Fin 4) * 1 + 1
    omega
  | ⟨2, _⟩ =>
    show win0_7.index _ (2 : Fin 4) * 512 ≤ (i 2).val ∧ (i 2).val < win0_7.index _ (2 : Fin 4) * 512 + 512
    omega
  | ⟨3, _⟩ =>
    show win0_7.index _ (3 : Fin 4) * 2048 ≤ (i 3).val ∧ (i 3).val < win0_7.index _ (3 : Fin 4) * 2048 + 2048
    omega

include hA0 hA3 in
/-- THE PROBABILITY ARRAY after the run is the reference's. -/
theorem final7 (c : Dev nD) : (dats m 0 c).arrAt 7 cfg0.N = attn m c :=
  (dats m 0 c).arrAt_eq_of_cover 7 (attn m c) (fun t _ => flushed7_eq m hA0 hA3 c t) cover7

/-! ## The output array (output window 6) -/

include hA0 hA3 in
/-- WHAT POINT t WRITES BACK to the output array is block t of the reference's stacked attended values. -/
theorem flushed6_eq (c : Dev nD) (t : Fin cfg0.N) :
    (dats m 0 c).flushed 6 t = ((cfg0.win 6).blk t).view.read (Elt Ideal) (out m c) := by
  obtain ⟨e0, e1, e2, e3, e4, e5, e6, e7⟩ := idx_facts t
  have a0 : win0_6.index t (0 : Fin 5) = t.val / 64 := congrFun e6 0
  have a1 : win0_6.index t (1 : Fin 5) = t.val / 4 % 16 := congrFun e6 1
  have a2 : win0_6.index t (2 : Fin 5) = t.val % 4 := congrFun e6 2
  have a3 : win0_6.index t (3 : Fin 5) = 0 := congrFun e6 3
  have a4 : win0_6.index t (4 : Fin 5) = 0 := congrFun e6 4
  refine (Cert.KernelIdeal.Value.flushed6 m c t).trans ?_
  unfold out0_6
  funext j
  have hj0 : (j 0).val < 1 := (j 0).isLt
  have hj1 : (j 1).val < 1 := (j 1).isLt
  show View.canon [⟨r0_3, k0_pay3 (k0_pay4 (View.ld (iblk m c 4 t) r0_1) (View.ld (iblk m c 5 t) r0_1))
      (k0_pay5 (View.ld (iblk m c 0 t) r0_0) (View.ld (iblk m c 1 t) r0_0)
        (View.ld (iblk m c 2 t) r0_1) (View.ld (iblk m c 3 t) r0_1))⟩] j
    = out m c (((cfg0.win 6).blk t).view.emb j)
  refine (congrFun (View.canon_unit_zero (Val := Elt Ideal) (e := EltTy.f32) (S := S1x1x512x64x2) hz5 _
    (k0_pay3 (k0_pay4 (View.ld (iblk m c 4 t) r0_1) (View.ld (iblk m c 5 t) r0_1))
      (k0_pay5 (View.ld (iblk m c 0 t) r0_0) (View.ld (iblk m c 1 t) r0_0)
        (View.ld (iblk m c 2 t) r0_1) (View.ld (iblk m c 3 t) r0_1)))) j).trans ?_
  refine (Cert.Point.out_eq (V m c main_arg0) (V m c main_arg1) (V m c main_arg2) (V m c main_arg3)
    (V m c main_arg4) (V m c main_arg5) (hA0 c) (hA3 c)
    (View.ld (iblk m c 0 t) r0_0) (View.ld (iblk m c 1 t) r0_0) (View.ld (iblk m c 2 t) r0_1)
    (View.ld (iblk m c 3 t) r0_1) (View.ld (iblk m c 4 t) r0_1) (View.ld (iblk m c 5 t) r0_1)
    (pb t) (ph t) (pq t) (block0 m c t) (block1 m c t) (block2 m c t) (block3 m c t) (block4 m c t) (block5 m c t)
    j).trans ?_
  refine congrArg (out m c) (funext fun a => Fin.ext ?_)
  match a with
  | ⟨0, _⟩ => show t.val / 64 = win0_6.index t (0 : Fin 5) * 1 + 1 * (j 0).val; omega
  | ⟨1, _⟩ => show t.val / 4 % 16 = win0_6.index t (1 : Fin 5) * 1 + 1 * (j 1).val; omega
  | ⟨2, _⟩ => show t.val % 4 * 512 + (j 2).val = win0_6.index t (2 : Fin 5) * 512 + 1 * (j 2).val; omega
  | ⟨3, _⟩ => show (j 3).val = win0_6.index t (3 : Fin 5) * 64 + 1 * (j 3).val; omega
  | ⟨4, _⟩ => show (j 4).val = win0_6.index t (4 : Fin 5) * 2 + 1 * (j 4).val; omega

/-- An index of the output array is in point t's block iff each coordinate is in the block's range on its axis. -/
theorem mem_blk6 (t : Fin cfg0.N) (i : S4x16x2048x64x2.Idx) :
    i ∈ ((cfg0.win 6).blk t).view.set ↔ ∀ a : Fin 5, win0_6.index t a * S1x1x512x64x2.size a ≤ (i a).val
      ∧ (i a).val < win0_6.index t a * S1x1x512x64x2.size a + S1x1x512x64x2.size a := by
  show i ∈ ((View.whole main_v0_0).slice (win0_6.rect t)).set ↔ _
  rw [View.set_slice_whole, Rect.mem_set_unit]
  exact Iff.rfl

/-- Every index of the output array is in the block of the point of its batch, head and query tile. -/
theorem cover6 (i : S4x16x2048x64x2.Idx) :
    ∃ t : Fin cfg0.N, (cfg0.win 6).flush t = true ∧ i ∈ ((cfg0.win 6).blk t).view.set := by
  have hi0 : (i 0).val < 4 := (i 0).isLt
  have hi1 : (i 1).val < 16 := (i 1).isLt
  have hi2 : (i 2).val < 2048 := (i 2).isLt
  have hi3 : (i 3).val < 64 := (i 3).isLt
  have hi4 : (i 4).val < 2 := (i 4).isLt
  have hn : ((i 0).val * 16 + (i 1).val) * 4 + (i 2).val / 512 < 256 := by omega
  obtain ⟨e0, e1, e2, e3, e4, e5, e6, e7⟩ :=
    idx_facts ⟨((i 0).val * 16 + (i 1).val) * 4 + (i 2).val / 512, hn⟩
  have a0 : win0_6.index ⟨((i 0).val * 16 + (i 1).val) * 4 + (i 2).val / 512, hn⟩ (0 : Fin 5)
      = (((i 0).val * 16 + (i 1).val) * 4 + (i 2).val / 512) / 64 := congrFun e6 0
  have a1 : win0_6.index ⟨((i 0).val * 16 + (i 1).val) * 4 + (i 2).val / 512, hn⟩ (1 : Fin 5)
      = (((i 0).val * 16 + (i 1).val) * 4 + (i 2).val / 512) / 4 % 16 := congrFun e6 1
  have a2 : win0_6.index ⟨((i 0).val * 16 + (i 1).val) * 4 + (i 2).val / 512, hn⟩ (2 : Fin 5)
      = (((i 0).val * 16 + (i 1).val) * 4 + (i 2).val / 512) % 4 := congrFun e6 2
  have a3 : win0_6.index ⟨((i 0).val * 16 + (i 1).val) * 4 + (i 2).val / 512, hn⟩ (3 : Fin 5) = 0 := congrFun e6 3
  have a4 : win0_6.index ⟨((i 0).val * 16 + (i 1).val) * 4 + (i 2).val / 512, hn⟩ (4 : Fin 5) = 0 := congrFun e6 4
  refine ⟨⟨((i 0).val * 16 + (i 1).val) * 4 + (i 2).val / 512, hn⟩, flush0_6 _, ?_⟩
  rw [mem_blk6]
  intro a
  match a with
  | ⟨0, _⟩ =>
    show win0_6.index _ (0 : Fin 5) * 1 ≤ (i 0).val ∧ (i 0).val < win0_6.index _ (0 : Fin 5) * 1 + 1
    omega
  | ⟨1, _⟩ =>
    show win0_6.index _ (1 : Fin 5) * 1 ≤ (i 1).val ∧ (i 1).val < win0_6.index _ (1 : Fin 5) * 1 + 1
    omega
  | ⟨2, _⟩ =>
    show win0_6.index _ (2 : Fin 5) * 512 ≤ (i 2).val ∧ (i 2).val < win0_6.index _ (2 : Fin 5) * 512 + 512
    omega
  | ⟨3, _⟩ =>
    show win0_6.index _ (3 : Fin 5) * 64 ≤ (i 3).val ∧ (i 3).val < win0_6.index _ (3 : Fin 5) * 64 + 64
    omega
  | ⟨4, _⟩ =>
    show win0_6.index _ (4 : Fin 5) * 2 ≤ (i 4).val ∧ (i 4).val < win0_6.index _ (4 : Fin 5) * 2 + 2
    omega

include hA0 hA3 in
/-- THE OUTPUT ARRAY after the run is the reference's. -/
theorem final6 (c : Dev nD) : (dats m 0 c).arrAt 6 cfg0.N = out m c :=
  (dats m 0 c).arrAt_eq_of_cover 6 (out m c) (fun t _ => flushed6_eq m hA0 hA3 c t) cover6

/-! ## The run, read -/

include hA0 hA3 in
/-- The kernel's run with both result arrays at the reference's two results of the argument arrays, the arguments
    unchanged. -/
theorem run : θ_run defs (onTc (τ := τ) (main (F := Ideal))) ⟨m, fun _ => 0, ρ⟩ fun r => ∀ c : Dev nD,
      r.2.mem ((c : Thread nD τ).loc main_v0_0) = out m c
      ∧ r.2.mem ((c : Thread nD τ).loc main_v0_1) = attn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m hA0 hA3 c), (h c).2.1.trans (final7 m hA0 hA3 c),
      (h c).2.2⟩)
    (Cert.KernelIdeal.Value.run_blocks m ρ)

end Cert.Blocks

end
-- ==== Proof.lean ====
/-
  Complex scaled dot-product attention: a tiled kernel against its plain reference, equal on the extended reals.

  Inputs are the real and imaginary parts of queries, keys and values, each [4, 16, 2048, 64] (batch, head, row, entry).
  Per batch and head the result is attn = softmax_k |(q/8) · conj(k)| over the 2048 keys, and
  out = stack(attn · vr, attn · vi) along a new last axis.  The kernel tiles the 2048 query rows into four tiles of 512 per
  (batch, head), lays real and imaginary parts side by side so that 128-deep products do the work of pairs of 64-deep
  ones, multiplies by 1/8 where the reference divides by 8, and writes the imaginary score as one sum with a negated
  half where the reference subtracts two sums.

  Why they agree: 1/8 is exact, and x · (1/8) = x / 8 on every extended real; a 128-term sum is the sum of its two
  halves; Σ (0 - a)·b = -Σ a·b when the terms are real, which is where the finiteness of q_real and k_imag is used and the
  only place; after the scores both programs apply one and the same softmax and one and the same product with the
  values.  The 256 grid points' output tiles cover both result arrays, and each point writes the reference's values on
  its rows.

  The frames of the two kernel programs are the generated ones; the reference's frame is its generated run with the
  results dropped; the idealization rewrote nothing, so there is nothing to preserve.
-/
import proofs.«107668_j1365799600287_2_alg».proof.Defs
import proofs.«107668_j1365799600287_2_alg».proof.Proof.Gen.Kernel
import proofs.«107668_j1365799600287_2_alg».proof.Proof.Gen.Kernel.Skeleton
import proofs.«107668_j1365799600287_2_alg».proof.Proof.Gen.Kernel.Launch
import proofs.«107668_j1365799600287_2_alg».proof.Proof.Gen.Kernel.Points
import proofs.«107668_j1365799600287_2_alg».proof.Proof.Gen.Kernel.Frame
import proofs.«107668_j1365799600287_2_alg».proof.Proof.Gen.KernelIdeal
import proofs.«107668_j1365799600287_2_alg».proof.Proof.Gen.KernelIdeal.Skeleton
import proofs.«107668_j1365799600287_2_alg».proof.Proof.Gen.KernelIdeal.Launch
import proofs.«107668_j1365799600287_2_alg».proof.Proof.Gen.KernelIdeal.Points
import proofs.«107668_j1365799600287_2_alg».proof.Proof.Gen.KernelIdeal.Frame
import proofs.«107668_j1365799600287_2_alg».proof.Proof.Gen.ReferenceIdeal
import proofs.«107668_j1365799600287_2_alg».proof.Proof.Gen.Pre_finite_inputs
import proofs.«107668_j1365799600287_2_alg».proof.Proof.Gen.KernelIdeal.Value
import proofs.«107668_j1365799600287_2_alg».proof.Proof.RefRunP
import proofs.«107668_j1365799600287_2_alg».proof.Proof.RefReadP
import proofs.«107668_j1365799600287_2_alg».proof.Proof.Finite
import proofs.«107668_j1365799600287_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2)
    (Cert.ReferenceIdeal.ValueP.run (F := Ideal) m ρ)

/-- The idealization rewrote no operation. -/
theorem preserves : Cert.preserves_Kernel_KernelIdeal := trivial

/-- From memories that agree on the six arguments, the idealized kernel ends with its two result arrays at the
    reference's probabilities and stacked attended values of those arguments (the precondition gives the reals the score's
    law needs), and the reference ends with exactly those. -/
theorem algebraic : Cert.algebraic_KernelIdeal_ReferenceIdeal := by
  intro m ρ m' ρ' hpre hagree
  have hfin := fun c : Dev Cert.KernelIdeal.nD => Cert.Finite.reals_of_pre _ _ _ _ _ _ (hpre c)
  refine ⟨fun c => Cert.Blocks.out m c, fun c => Cert.Blocks.attn m c,
    Cert.Blocks.run m ρ (fun c => (hfin c).1) (fun c => (hfin c).2), ?_⟩
  refine (θ_run Cert.ReferenceIdeal.defs _ _).mono (fun _ h c => ⟨?_, ?_, (h c).2.2⟩)
    (Cert.ReferenceIdeal.ValueP.run (F := Ideal) m' ρ')
  · obtain ⟨h0, h1, h2, h3, h4, h5⟩ := hagree c
    rw [(h c).1, Cert.ReferenceIdeal.ReadP.val_main_v29_eq, h0, h1, h2, h3, h4, h5]
  · obtain ⟨h0, h1, h2, h3, h4, h5⟩ := hagree c
    rw [(h c).2.1, Cert.ReferenceIdeal.ReadP.val_main_v24_eq, h0, h1, h2, h3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
